-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S31250x512 : Shape := ⟨2, ![31250, 512]⟩
abbrev S31250x384 : Shape := ⟨2, ![31250, 384]⟩
abbrev S31250x1152 : Shape := ⟨2, ![31250, 1152]⟩
abbrev S632x512 : Shape := ⟨2, ![632, 512]⟩
abbrev S632x384 : Shape := ⟨2, ![632, 384]⟩
abbrev S632x1152 : Shape := ⟨2, ![632, 1152]⟩
abbrev S632x128x4 : Shape := ⟨3, ![632, 128, 4]⟩
abbrev S632x4x128 : Shape := ⟨3, ![632, 4, 128]⟩
abbrev S632x128x3 : Shape := ⟨3, ![632, 128, 3]⟩
abbrev S632x3x128 : Shape := ⟨3, ![632, 3, 128]⟩
abbrev S632x1x128 : Shape := ⟨3, ![632, 1, 128]⟩
abbrev S632x128 : Shape := ⟨2, ![632, 128]⟩
abbrev S632x9x128 : Shape := ⟨3, ![632, 9, 128]⟩
abbrev S632x128x9 : Shape := ⟨3, ![632, 128, 9]⟩
abbrev S4000000x9 : Shape := ⟨2, ![4000000, 9]⟩
abbrev S4000000x3x3 : Shape := ⟨3, ![4000000, 3, 3]⟩

abbrev nBuf : Space → Nat
  | .hbm => 7
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S31250x512, .f32⟩
  | .hbm, ⟨3, _⟩ => ⟨S31250x384, .f32⟩
  | .hbm, ⟨4, _⟩ => ⟨S31250x1152, .f32⟩
  | .hbm, ⟨5, _⟩ => ⟨S4000000x9, .f32⟩
  | .hbm, ⟨6, _⟩ => ⟨S4000000x3x3, .f32⟩
  | .local _ .vmem, ⟨0, _⟩ => ⟨S632x512, .f32⟩
  | .local _ .vmem, ⟨1, _⟩ => ⟨S632x512, .f32⟩
  | .local _ .vmem, ⟨2, _⟩ => ⟨S632x384, .f32⟩
  | .local _ .vmem, ⟨3, _⟩ => ⟨S632x384, .f32⟩
  | .local _ .vmem, ⟨4, _⟩ => ⟨S632x1152, .f32⟩
  | .local _ .vmem, ⟨5, _⟩ => ⟨S632x1152, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S632x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S632x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S632x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4000000x4_S31250x512 : S4000000x4.ShapeCasts S31250x512
  shapeCasts_S4000000x3_S31250x384 : S4000000x3.ShapeCasts S31250x384
  inb_S632x512_S632x512_0_0 : ∀ a, (![0, 0] : Fin 2 → Nat) a + S632x512.size a ≤ S632x512.size a
  h_S632x512 : 0 < S632x512.numel
  shapeCasts_S632x512_S632x512 : S632x512.ShapeCasts S632x512
  inb_S632x384_S632x384_0_0 : ∀ a, (![0, 0] : Fin 2 → Nat) a + S632x384.size a ≤ S632x384.size a
  h_S632x384 : 0 < S632x384.numel
  shapeCasts_S632x384_S632x384 : S632x384.ShapeCasts S632x384
  shapeCasts_S632x512_S632x128x4 : S632x512.ShapeCasts S632x128x4
  transposes_S632x128x4_p0_2_1_S632x4x128 : S632x128x4.Transposes [0, 2, 1] S632x4x128
  shapeCasts_S632x384_S632x128x3 : S632x384.ShapeCasts S632x128x3
  transposes_S632x128x3_p0_2_1_S632x3x128 : S632x128x3.Transposes [0, 2, 1] S632x3x128
  slices_S632x4x128_o0_0_0_S632x1x128 : S632x4x128.Slices ![0, 0, 0] S632x1x128
  shapeCasts_S632x1x128_S632x128 : S632x1x128.ShapeCasts S632x128
  slices_S632x4x128_o0_1_0_S632x1x128 : S632x4x128.Slices ![0, 1, 0] S632x1x128
  slices_S632x4x128_o0_2_0_S632x1x128 : S632x4x128.Slices ![0, 2, 0] S632x1x128
  slices_S632x4x128_o0_3_0_S632x1x128 : S632x4x128.Slices ![0, 3, 0] S632x1x128
  slices_S632x3x128_o0_0_0_S632x1x128 : S632x3x128.Slices ![0, 0, 0] S632x1x128
  slices_S632x3x128_o0_1_0_S632x1x128 : S632x3x128.Slices ![0, 1, 0] S632x1x128
  slices_S632x3x128_o0_2_0_S632x1x128 : S632x3x128.Slices ![0, 2, 0] S632x1x128
  shapeCasts_S632x128_S632x1x128 : S632x128.ShapeCasts S632x1x128
  concatenates_S632x1x128_S632x1x128_S632x1x128_S632x1x128_S632x1x128_S632x1x128_S632x1x128_S632x1x128_S632x1x128_S632x9x128_d1 : Shape.Concatenates [S632x1x128, S632x1x128, S632x1x128, S632x1x128, S632x1x128, S632x1x128, S632x1x128, S632x1x128, S632x1x128] S632x9x128 1
  transposes_S632x9x128_p0_2_1_S632x128x9 : S632x9x128.Transposes [0, 2, 1] S632x128x9
  shapeCasts_S632x128x9_S632x1152 : S632x128x9.ShapeCasts S632x1152
  inb_S632x1152_S632x1152_0_0 : ∀ a, (![0, 0] : Fin 2 → Nat) a + S632x1152.size a ≤ S632x1152.size a
  h_S632x1152 : 0 < S632x1152.numel
  shapeCasts_S31250x1152_S4000000x9 : S31250x1152.ShapeCasts S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S632x512.size a < S31250x512.size a
  hwx0_0 : ∀ i : grid0.Coords, EltTy.bits .f32 = 32 ∨ (Rect.unit (s := S31250x512) (fun a => cc0_transform_0 i a * S632x512.size a) (fun a => (Pipeline.Clip.of (cc0_transform_0 i a) (S632x512.size a) (S31250x512.size a)).extent (S632x512.size a)) fun a => Pipeline.Clip.inb (Pipeline.Clip.ok_of (hstart0_0 i a))).WholeWords (EltTy.packing .f32)
  hwxs0_0 : ∀ i : grid0.Coords, EltTy.bits .f32 = 32 ∨ (Rect.unit (s := S632x512) (fun _ => 0) (fun a => (Pipeline.Clip.of (cc0_transform_0 i a) (S632x512.size a) (S31250x512.size a)).extent (S632x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S632x384.size a < S31250x384.size a
  hwx0_1 : ∀ i : grid0.Coords, EltTy.bits .f32 = 32 ∨ (Rect.unit (s := S31250x384) (fun a => cc0_transform_1 i a * S632x384.size a) (fun a => (Pipeline.Clip.of (cc0_transform_1 i a) (S632x384.size a) (S31250x384.size a)).extent (S632x384.size a)) fun a => Pipeline.Clip.inb (Pipeline.Clip.ok_of (hstart0_1 i a))).WholeWords (EltTy.packing .f32)
  hwxs0_1 : ∀ i : grid0.Coords, EltTy.bits .f32 = 32 ∨ (Rect.unit (s := S632x384) (fun _ => 0) (fun a => (Pipeline.Clip.of (cc0_transform_1 i a) (S632x384.size a) (S31250x384.size a)).extent (S632x384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S632x1152.size a < S31250x1152.size a
  hwx0_2 : ∀ i : grid0.Coords, EltTy.bits .f32 = 32 ∨ (Rect.unit (s := S31250x1152) (fun a => cc0_transform_2 i a * S632x1152.size a) (fun a => (Pipeline.Clip.of (cc0_transform_2 i a) (S632x1152.size a) (S31250x1152.size a)).extent (S632x1152.size a)) fun a => Pipeline.Clip.inb (Pipeline.Clip.ok_of (hstart0_2 i a))).WholeWords (EltTy.packing .f32)
  hwxs0_2 : ∀ i : grid0.Coords, EltTy.bits .f32 = 32 ∨ (Rect.unit (s := S632x1152) (fun _ => 0) (fun a => (Pipeline.Clip.of (cc0_transform_2 i a) (S632x1152.size a) (S31250x1152.size a)).extent (S632x1152.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S632x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S632x384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S632x1152.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 128
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S4000000x1, .f32⟩
  | .hbm, ⟨48, _⟩ => ⟨S4000000x1, .f32⟩
  | .hbm, ⟨49, _⟩ => ⟨S4000000x1, .f32⟩
  | .hbm, ⟨50, _⟩ => ⟨S4000000x3, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S_, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S_, .f32⟩
  | .hbm, ⟨77, _⟩ => ⟨S4000000, .f32⟩
  | .hbm, ⟨78, _⟩ => ⟨S4000000, .f32⟩
  | .hbm, ⟨79, _⟩ => ⟨S4000000, .f32⟩
  | .hbm, ⟨80, _⟩ => ⟨S4000000, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x3, .f32⟩
  | .hbm, ⟨85, _⟩ => ⟨S_, .f32⟩
  | .hbm, ⟨86, _⟩ => ⟨S4000000, .f32⟩
  | .hbm, ⟨87, _⟩ => ⟨S4000000, .f32⟩
  | .hbm, ⟨88, _⟩ => ⟨S4000000, .f32⟩
  | .hbm, ⟨89, _⟩ => ⟨S_, .f32⟩
  | .hbm, ⟨90, _⟩ => ⟨S4000000, .f32⟩
  | .hbm, ⟨91, _⟩ => ⟨S4000000, .f32⟩
  | .hbm, ⟨92, _⟩ => ⟨S4000000, .f32⟩
  | .hbm, ⟨93, _⟩ => ⟨S4000000, .f32⟩
  | .hbm, ⟨94, _⟩ => ⟨S_, .f32⟩
  | .hbm, ⟨95, _⟩ => ⟨S4000000, .f32⟩
  | .hbm, ⟨96, _⟩ => ⟨S4000000, .f32⟩
  | .hbm, ⟨97, _⟩ => ⟨S4000000, .f32⟩
  | .hbm, ⟨98, _⟩ => ⟨S_, .f32⟩
  | .hbm, ⟨99, _⟩ => ⟨S4000000, .f32⟩
  | .hbm, ⟨100, _⟩ => ⟨S4000000, .f32⟩
  | .hbm, ⟨101, _⟩ => ⟨S4000000, .f32⟩
  | .hbm, ⟨102, _⟩ => ⟨S4000000, .f32⟩
  | .hbm, ⟨103, _⟩ => ⟨S_, .f32⟩
  | .hbm, ⟨104, _⟩ => ⟨S4000000, .f32⟩
  | .hbm, ⟨105, _⟩ => ⟨S4000000, .f32⟩
  | .hbm, ⟨106, _⟩ => ⟨S4000000, .f32⟩
  | .hbm, ⟨107, _⟩ => ⟨S_, .f32⟩
  | .hbm, ⟨108, _⟩ => ⟨S4000000, .f32⟩
  | .hbm, ⟨109, _⟩ => ⟨S4000000, .f32⟩
  | .hbm, ⟨110, _⟩ => ⟨S_, .f32⟩
  | .hbm, ⟨111, _⟩ => ⟨S4000000, .f32⟩
  | .hbm, ⟨112, _⟩ => ⟨S4000000, .f32⟩
  | .hbm, ⟨113, _⟩ => ⟨S4000000, .f32⟩
  | .hbm, ⟨114, _⟩ => ⟨S4000000, .f32⟩
  | .hbm, ⟨115, _⟩ => ⟨S4000000x1, .f32⟩
  | .hbm, ⟨116, _⟩ => ⟨S4000000x1, .f32⟩
  | .hbm, ⟨117, _⟩ => ⟨S4000000x1, .f32⟩
  | .hbm, ⟨118, _⟩ => ⟨S4000000x3, .f32⟩
  | .hbm, ⟨119, _⟩ => ⟨S4000000x1x3, .f32⟩
  | .hbm, ⟨120, _⟩ => ⟨S4000000x1x3, .f32⟩
  | .hbm, ⟨121, _⟩ => ⟨S4000000x1x3, .f32⟩
  | .hbm, ⟨122, _⟩ => ⟨S4000000x3x3, .f32⟩
  | .hbm, ⟨123, _⟩ => ⟨S4000000x3, .f32⟩
  | .hbm, ⟨124, _⟩ => ⟨S4000000x1x3, .f32⟩
  | .hbm, ⟨125, _⟩ => ⟨S4000000x3x3, .f32⟩
  | .hbm, ⟨126, _⟩ => ⟨S4000000x3x3, .f32⟩
  | .hbm, ⟨127, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.PayDefB.lean ====
/-
  What the kernel body stores into the result's staging buffer, as ONE function of the two blocks it loads: the
  generated payload definitions composed in the order the body's three parts pass values on. The first block holds
  632 rows of 128 quaternions (four words each, interleaved), the second 632 rows of 128 log-scale triples; the stored
  block holds 632 rows of 128 covariance matrices (nine words each, interleaved).
-/
import proofs.«158826_j11218454577222_2_alg».proof.Proof.Gen.Kernel.Skeleton

noncomputable section

namespace Cert.KB

open Idealize.ShloMosaic Cert.Kernel Cert.Kernel.Gen

variable {F : FTy → Type} [FloatOps F]

/-- The stored block from the two loaded blocks. -/
def stored (v0 : Vec F S632x512 .f32) (v2 : Vec F S632x384 .f32) : FVec F S632x1152 .f32 :=
  k0_pay1 (k0_pay25 (k0_pay3 v2) (k0_pay11 v0) (k0_pay13 v0) (k0_pay14 v0)
    (k0_pay17 (k0_pay9 v0) (k0_pay11 v0) (k0_pay15 v0) k0_pay16)
    (k0_pay18 (k0_pay9 v0) (k0_pay10 v0) (k0_pay11 v0) (k0_pay12 v0))
    (k0_pay19 (k0_pay10 v0) (k0_pay12 v0))
    (k0_pay20 (k0_pay9 v0) (k0_pay10 v0) (k0_pay11 v0) (k0_pay12 v0))
    (k0_pay21 (k0_pay9 v0) (k0_pay10 v0) (k0_pay11 v0) (k0_pay12 v0))
    (k0_pay22 (k0_pay9 v0) (k0_pay10 v0) (k0_pay11 v0) (k0_pay12 v0))
    (k0_pay23 (k0_pay10 v0)) k0_pay24)

end Cert.KB

end
-- ==== Proof.BodyB.lean ====
/-
  The frame run of the pallas_call, with every staging buffer's contents NAMED.

  The call walks fifty grid points. At point t the pipeline fetches rows 632 t … 632 t + 631 of the two reshaped input
  arrays (31250 rows each) into staging buffers, runs the body, and writes the result's staging buffer back to the same
  rows of the result array. 632 · 50 = 31600 > 31250: the last block overhangs the arrays by 350 rows; its fetch
  lands only the 282 rows inside the array and leaves the rest of the buffer at words nothing names, and its write-back
  writes only those 282 rows. So the body is specified on ARBITRARY buffer contents: from blocks x0, x1 it leaves
  `stored x0 x1` in the result's buffer and x0, x1 where they were. What the run then needs is that the rows of
  `stored x0 x1` inside the array do not depend on the unnamed rows of x0, x1 — each stored row is computed from the same
  row of the inputs (`RowLocal`, proved in its own module from the body's arithmetic read at an index).
-/
import proofs.«158826_j11218454577222_2_alg».proof.Proof.Gen.Kernel.Frame
import proofs.«158826_j11218454577222_2_alg».proof.Proof.Gen.Kernel.Skeleton
import proofs.«158826_j11218454577222_2_alg».proof.Proof.PayDefB
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on arbitrary buffer contents -/

/-- The body's three accesses are of the whole buffers. -/
abbrev r512 : Rect S632x512 := Rect.unit (s := S632x512) ![0, 0] S632x512.size inb_S632x512_S632x512_0_0
abbrev r384 : Rect S632x384 := Rect.unit (s := S632x384) ![0, 0] S632x384.size inb_S632x384_S632x384_0_0
abbrev r1152 : Rect S632x1152 := Rect.unit (s := S632x1152) ![0, 0] S632x1152.size inb_S632x1152_S632x1152_0_0

theorem hz2 : (![0, 0] : Fin 2 → Nat) = fun _ => 0 := funext fun a => by fin_cases a <;> rfl

/-- The one store covers the result's buffer. -/
theorem cover2 (p0 : Vec F S632x1152 .f32) (y : S632x1152.Idx) :
    ∃ pc ∈ ([⟨r1152, p0⟩] : List (View.Piece (Elt F) S632x1152 .f32)), y ∈ pc.1.set :=
  View.cover_of_tiled [⟨r1152, p0⟩] S632x1152.size (by rfl) y

/-- What the result's buffer holds after the one store of the block computed from the two whole loads. -/
theorem canon_stored (x0 : Vec F S632x512 .f32) (x1 : Vec F S632x384 .f32) :
    View.canon [(⟨r1152, stored (View.ld x0 r512) (View.ld x1 r384)⟩ : View.Piece (Elt F) S632x1152 .f32)] = stored x0 x1 := by
  rw [View.canon_unit_zero hz2, View.ld_unit_zero (S := S632x512) hz2, View.ld_unit_zero (S := S632x384) hz2]

set_option maxHeartbeats 1000000 in
/-- The kernel body on whole staging memrefs, the inputs' at contents x0, x1 and the result's at anything, runs to the
    continuation with the inputs' as they were and the result's at `stored x0 x1`. -/
theorem sound_kernel (c : Dev nD) (E : Set ℕ) (i : grid0.Coords)
    (arg1 : Memref sig .tc .vmem S632x512 .f32) (harg1 : arg1.IsWhole) (arg2 : Memref sig .tc .vmem S632x384 .f32) (harg2 : arg2.IsWhole)
    (arg3 : Memref sig .tc .vmem S632x1152 .f32) (harg3 : arg3.IsWhole)
    (x0 : Vec F S632x512 .f32) (x1 : Vec F S632x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__gaussian_cov_kernel i arg1 harg1 arg2 harg2 arg3 harg3) K := by
  simp only [cc0__gaussian_cov_kernel_eq_skeleton]; unfold cc0__gaussian_cov_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [View.read_writes_eq_canon _ _ _ (cover2 _)]
  exact canon_stored (View.read (Elt F) arg1.view f0) (View.read (Elt F) arg2.view f1)

/-! ## The proof data -/

/-- Each stored row depends on the same row of the two loaded blocks only: blocks that agree on the rows a point's
    transfers move give stored blocks that agree on the rows its write-back moves. -/
def RowLocal (F : FTy → Type) [FloatOps F] : Prop :=
  ∀ (t : Fin cfg0.N) (A A' : Vec F S632x512 .f32) (B B' : Vec F S632x384 .f32),
    win0_0.cut (grid0.coords t) A = win0_0.cut (grid0.coords t) A' →
    win0_1.cut (grid0.coords t) B = win0_1.cut (grid0.coords t) B' →
    win0_2.cut (grid0.coords t) (stored A B) = win0_2.cut (grid0.coords t) (stored A' B')

/-- The first input's staging buffer after the body at point t: the block's rows inside the array, and the zero
    word on the rows past its end (which nothing reads back: the obligation states the buffers on the moved rows only). -/
def in0 (c : Dev nD) (t : Fin cfg0.N) : S632x512.Idx → Elt F .f32 :=
  win0_0.fill (grid0.coords t) (fun _ => Scalar.ofBits .f32 0#32) (iblk m c 0 t)
/-- The second input's likewise. -/
def in1 (c : Dev nD) (t : Fin cfg0.N) : S632x384.Idx → Elt F .f32 :=
  win0_1.fill (grid0.coords t) (fun _ => Scalar.ofBits .f32 0#32) (iblk m c 1 t)

/-- The result's staging buffer after the body at point t: the block stored from those two. -/
def out2 (c : Dev nD) (t : Fin cfg0.N) : S632x1152.Idx → Elt F .f32 := stored (in0 m c t) (in1 m c t)

/-- The proof data of the pipeline on core c: the arrays as the region finds them; after the body at point t the two
    inputs' buffers at their blocks and the result's at the block stored from them; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => out2 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = out2 m c t := by dsimp only [dats]

/-- The result's window is never fetched. -/
theorem fetch0_2 : ∀ t : Fin cfg0.N, (cfg0.win 2).fetch t = false :=
  (by decide +kernel : ∀ t : Fin grid0.N, win0_2.fetch t = false)

/-- What the body finds: each input's buffer just fetched — the block on the rows inside the array, d elsewhere —, -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl
/-- and the result's at contents nothing names (every point writes it back, so it is fresh at the next). -/
theorem before2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body obligation -/

theorem body_obligation (hloc : RowLocal F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (in0 m c t) = iblk m c 0 t := win0_0.cut_fill _ _ _
  have hy : win0_1.cut (grid0.coords t) (in1 m c t) = iblk m c 1 t := win0_1.cut_fill _ _ _
  have hs : win0_2.cut (grid0.coords t) (stored (win0_0.fill (grid0.coords t) d0 (iblk m c 0 t)) (win0_1.fill (grid0.coords t) d1 (iblk m c 1 t)))
      = win0_2.cut (grid0.coords t) (out2 m c t) :=
    hloc t _ _ _ _ ((win0_0.cut_fill _ _ _).trans hx.symm) ((win0_1.cut_fill _ _ _).trans hy.symm)
  isplitl [H0]
  · iexists d0
    change _ ⊢ owns (c : Thread nD τ) (stage0_0 (cfg0.slots t 0)) fullShare (win0_0.fill (grid0.coords t) d0 (win0_0.cut (grid0.coords t) (in0 m c t)))
    rw [hx]; try iexact H0
  isplitl [H1]
  · iexists d1
    change _ ⊢ owns (c : Thread nD τ) (stage0_1 (cfg0.slots t 1)) fullShare (win0_1.fill (grid0.coords t) d1 (win0_1.cut (grid0.coords t) (in1 m c t)))
    rw [hy]; try iexact H1
  · iexists (stored (win0_0.fill (grid0.coords t) d0 (iblk m c 0 t)) (win0_1.fill (grid0.coords t) d1 (iblk m c 1 t)) : S632x1152.Idx → Elt F .f32)
    change _ ⊢ owns (c : Thread nD τ) (stage0_2 (cfg0.slots t 2)) fullShare (win0_2.fill (grid0.coords t) _ (win0_2.cut (grid0.coords t) (out2 m c t)))
    rw [win0_2.fill_congr_cut (grid0.coords t) hs]; try iexact H2

/-! ## The run and the frame -/

set_option backward.isDefEq.respectTransparency.types false in
/-- At the compiled mesh, for any values, from any memory with zero counters: every weakly fair execution of @main
    terminates, every array of the pipeline ends at what the write-backs of the named buffers make of it, and every
    other unscoped buffer at what the host lines after the region compute from those. -/
theorem run_main (hloc : RowLocal F) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as they were. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hloc)

end Cert.KB

end
-- ==== Proof.Spec.lean ====
/-
  One gaussian's covariance from its raw quaternion and log-scales, as a function of seven scalars.

  A row of the problem is a quaternion (w, x, y, z) and three log-scales (a, b, d). The quaternion is scaled by
  rsqrt (w² + x² + y² + z²); the rotation matrix R of the scaled quaternion has its columns multiplied by
  exp a, exp b, exp d (the matrix RS); the result is RS · RSᵀ, a symmetric 3 × 3 matrix stored row-major as nine
  entries c = 3 i + j. Every operation is the float instance's own, in the order the kernel applies them, so the
  definition can be read at any instance: at the word-level one it says which words a result entry depends on, at the
  extended reals it is an expression one can calculate with.
-/
import Idealize.ShloMosaic.PureOps
import Idealize.ShloMosaic.Lib.ValueIdx

noncomputable section

namespace Cert.Spec

open Idealize.ShloMosaic

variable {F : FTy → Type} [FloatOps F]

/-- The literals 2 and 1. -/
def two : F .f32 := Scalar.ofBits .f32 0x40000000#32
def one : F .f32 := Scalar.ofBits .f32 0x3F800000#32

/-- The reciprocal norm of the quaternion: rsqrt (((w² + x²) + y²) + z²). -/
def invNorm (w x y z : F .f32) : F .f32 :=
  FloatOps.rsqrt (FloatOps.addf (FloatOps.addf (FloatOps.addf (FloatOps.mulf w w) (FloatOps.mulf x x)) (FloatOps.mulf y y)) (FloatOps.mulf z z))

/-- 2 · p · q, as (2 · p) · q. -/
def twice (p q : F .f32) : F .f32 := FloatOps.mulf (FloatOps.mulf two p) q

/-- The rotation matrix of a quaternion (W, X, Y, Z), entry (i, j) at 3 i + j. -/
def rot (W X Y Z : F .f32) : Fin 9 → F .f32
  | 0 => FloatOps.subf (FloatOps.subf one (twice Y Y)) (twice Z Z)
  | 1 => FloatOps.subf (twice X Y) (twice W Z)
  | 2 => FloatOps.addf (twice X Z) (twice W Y)
  | 3 => FloatOps.addf (twice X Y) (twice W Z)
  | 4 => FloatOps.subf (FloatOps.subf one (twice X X)) (twice Z Z)
  | 5 => FloatOps.subf (twice Y Z) (twice W X)
  | 6 => FloatOps.subf (twice X Z) (twice W Y)
  | 7 => FloatOps.addf (twice Y Z) (twice W X)
  | 8 => FloatOps.subf (FloatOps.subf one (twice X X)) (twice Y Y)

/-- The scaled rotation RS: column k of the rotation of the NORMALISED quaternion times exp of the k-th log-scale. -/
def rs (w x y z a b d : F .f32) : Fin 9 → F .f32 :=
  let n := invNorm w x y z
  let R := rot (FloatOps.mulf w n) (FloatOps.mulf x n) (FloatOps.mulf y n) (FloatOps.mulf z n)
  fun
  | 0 => FloatOps.mulf (R 0) (FloatOps.exp a) | 1 => FloatOps.mulf (R 1) (FloatOps.exp b) | 2 => FloatOps.mulf (R 2) (FloatOps.exp d)
  | 3 => FloatOps.mulf (R 3) (FloatOps.exp a) | 4 => FloatOps.mulf (R 4) (FloatOps.exp b) | 5 => FloatOps.mulf (R 5) (FloatOps.exp d)
  | 6 => FloatOps.mulf (R 6) (FloatOps.exp a) | 7 => FloatOps.mulf (R 7) (FloatOps.exp b) | 8 => FloatOps.mulf (R 8) (FloatOps.exp d)

/-- Row i of M times row j of M, as ((M i0 · M j0) + (M i1 · M j1)) + (M i2 · M j2). -/
def rowDot (M : Fin 9 → F .f32) (i j : Fin 3) : F .f32 :=
  FloatOps.addf (FloatOps.addf (FloatOps.mulf (M ⟨3 * i.val, by omega⟩) (M ⟨3 * j.val, by omega⟩))
      (FloatOps.mulf (M ⟨3 * i.val + 1, by omega⟩) (M ⟨3 * j.val + 1, by omega⟩)))
    (FloatOps.mulf (M ⟨3 * i.val + 2, by omega⟩) (M ⟨3 * j.val + 2, by omega⟩))

/-- The nine stored entries of RS · RSᵀ: the entry at 3 i + j is the product of rows min i j and max i j (the matrix is
    symmetric and each off-diagonal product is formed once, smaller row first). -/
def covK (w x y z a b d : F .f32) : Fin 9 → F .f32 :=
  let M := rs w x y z a b d
  fun
  | 0 => rowDot M 0 0 | 1 => rowDot M 0 1 | 2 => rowDot M 0 2
  | 3 => rowDot M 0 1 | 4 => rowDot M 1 1 | 5 => rowDot M 1 2
  | 6 => rowDot M 0 2 | 7 => rowDot M 1 2 | 8 => rowDot M 2 2

end Cert.Spec

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.PayIdxB.lean ====
/-
  The block the kernel body stores, read at one index, for every float instance.

  The body de-interleaves its two loaded blocks — a row of the first holds 128 quaternions of four words, word k of
  quaternion l at column l · 4 + k; a row of the second 128 log-scale triples, column l · 3 + k — by a cast to
  [632, 128, 4] / [632, 128, 3], a transpose of the last two axes and one slice per channel; it then works pointwise on
  [632, 128] arrays, stacks its nine results along a new middle axis, transposes back and casts to [632, 1152], entry
  c of gaussian l at column l · 9 + c. Read at (r, l · 9 + c), every layout operation names one index of its operand,
  and the pointwise operations are the float instance's own applied to the values at (r, l): what is left is the
  specification's scalar function of the seven words of gaussian l of row r.
-/
import proofs.«158826_j11218454577222_2_alg».proof.Proof.PayDefB
import proofs.«158826_j11218454577222_2_alg».proof.Proof.Spec
import proofs.«158826_j11218454577222_2_alg».proof.Proof.LibGroupedLanes
import Idealize.ShloMosaic.Lib.Pipeline.Value
import Idealize.ShloMosaic.Lib.ValueIdx
import Idealize.ShloMosaic.Lib.ValueLayout

namespace Cert.KB

open Idealize.ShloMosaic Idealize.ShloMosaic.ValueIdx Cert.Kernel Cert.Kernel.Gen

variable {F : FTy → Type} [FloatOps F]

/-! ## Layout operations of the body, read at coordinates -/

section Layout
variable {α : Type} {a b c : ℕ}

/-- An [a, 1, c] array cast to [a, c] reads, at (p, l), the operand at (p, 0, l). -/
theorem dropMid_apply (x : (⟨3, ![a, 1, c]⟩ : Shape).Idx → α) (h : (⟨3, ![a, 1, c]⟩ : Shape).ShapeCasts ⟨2, ![a, c]⟩)
    (p : Fin a) (l : Fin c) : shapeCast ⟨2, ![a, c]⟩ x h (ix2 p l) = x (ix3 p (0 : Fin 1) l) :=
  shapeCast_apply x h _ _ (by
    rw [Shape.rowMajor_val_three, Shape.rowMajor_val_two]
    show (p.val * 1 + 0) * c + l.val = p.val * c + l.val
    rw [Nat.mul_one, Nat.add_zero])

/-- An [a, c] array cast to [a, 1, c] reads, at (p, u, l), the operand at (p, l), whatever the unit coordinate. -/
theorem addMid_apply (x : (⟨2, ![a, c]⟩ : Shape).Idx → α) (h : (⟨2, ![a, c]⟩ : Shape).ShapeCasts ⟨3, ![a, 1, c]⟩)
    (p : Fin a) (u : Fin 1) (l : Fin c) : shapeCast ⟨3, ![a, 1, c]⟩ x h (ix3 p u l) = x (ix2 p l) :=
  shapeCast_apply x h _ _ (by
    have hu : u.val = 0 := by omega
    rw [Shape.rowMajor_val_two, Shape.rowMajor_val_three]
    show p.val * c + l.val = (p.val * 1 + u.val) * c + l.val
    rw [hu, Nat.mul_one, Nat.add_zero])

/-- The slice of an [a, b, c] array that keeps the one middle coordinate o reads, at (p, u, l), the operand at (p, o, l). -/
theorem sliceMid_apply (o : ℕ) (x : (⟨3, ![a, b, c]⟩ : Shape).Idx → α)
    (h : (⟨3, ![a, b, c]⟩ : Shape).Slices ![0, o, 0] ⟨3, ![a, 1, c]⟩) (p : Fin a) (u : Fin 1) (l : Fin c) (g : Fin b)
    (hg : g.val = o) : extractStridedSlice ⟨3, ![a, 1, c]⟩ ![0, o, 0] x h (ix3 p u l) = x (ix3 p g l) :=
  extractStridedSlice_apply _ x h _ _ fun ax => match ax with
    | ⟨0, _⟩ => by show p.val = 0 + p.val; omega
    | ⟨1, _⟩ => by show g.val = o + u.val; omega
    | ⟨2, _⟩ => by show l.val = 0 + l.val; omega

end Layout

/-- One of nine values, by its number. -/
def pick9 {β : Type} (x0 x1 x2 x3 x4 x5 x6 x7 x8 : β) : Fin 9 → β
  | 0 => x0 | 1 => x1 | 2 => x2 | 3 => x3 | 4 => x4 | 5 => x5 | 6 => x6 | 7 => x7 | 8 => x8

section Concat
variable {α : Type} {a c : ℕ}

/-- Nine [a, 1, c] pieces laid along the middle axis: at (p, n, l) the result reads piece n at (p, 0, l). -/
theorem concat9_apply (x0 x1 x2 x3 x4 x5 x6 x7 x8 : (⟨3, ![a, 1, c]⟩ : Shape).Idx → α)
    (h : Shape.Concatenates [⟨3, ![a, 1, c]⟩, ⟨3, ![a, 1, c]⟩, ⟨3, ![a, 1, c]⟩, ⟨3, ![a, 1, c]⟩, ⟨3, ![a, 1, c]⟩,
      ⟨3, ![a, 1, c]⟩, ⟨3, ![a, 1, c]⟩, ⟨3, ![a, 1, c]⟩, ⟨3, ![a, 1, c]⟩] ⟨3, ![a, 9, c]⟩ 1)
    (p : Fin a) (n : Fin 9) (l : Fin c) :
    concatenate ⟨3, ![a, 9, c]⟩ 1 [⟨⟨3, ![a, 1, c]⟩, x0⟩, ⟨⟨3, ![a, 1, c]⟩, x1⟩, ⟨⟨3, ![a, 1, c]⟩, x2⟩,
        ⟨⟨3, ![a, 1, c]⟩, x3⟩, ⟨⟨3, ![a, 1, c]⟩, x4⟩, ⟨⟨3, ![a, 1, c]⟩, x5⟩, ⟨⟨3, ![a, 1, c]⟩, x6⟩,
        ⟨⟨3, ![a, 1, c]⟩, x7⟩, ⟨⟨3, ![a, 1, c]⟩, x8⟩] h (ix3 p n l)
      = pick9 x0 x1 x2 x3 x4 x5 x6 x7 x8 n (ix3 p (0 : Fin 1) l) :=
  concatenate_ofFn_unit_apply (t := ⟨3, ![a, 9, c]⟩) (s₁ := ⟨3, ![a, 1, c]⟩) (1 : Fin 3)
    (pick9 x0 x1 x2 x3 x4 x5 x6 x7 x8) h rfl rfl (ix3 p n l) n rfl (ix3 p (0 : Fin 1) l)
    (fun b hb => match b, hb with
      | ⟨0, _⟩, _ => rfl
      | ⟨1, _⟩, hb => absurd rfl hb
      | ⟨2, _⟩, _ => rfl)

end Concat

section Stack
variable {α : Type} {a c : ℕ}

/-- Nine [a, c] arrays, each cast to [a, 1, c], laid along the middle axis: at (p, n, l) the result reads array n at (p, l). -/
theorem stack9_apply (y0 y1 y2 y3 y4 y5 y6 y7 y8 : (⟨2, ![a, c]⟩ : Shape).Idx → α)
    (hc : (⟨2, ![a, c]⟩ : Shape).ShapeCasts ⟨3, ![a, 1, c]⟩)
    (h : Shape.Concatenates [⟨3, ![a, 1, c]⟩, ⟨3, ![a, 1, c]⟩, ⟨3, ![a, 1, c]⟩, ⟨3, ![a, 1, c]⟩, ⟨3, ![a, 1, c]⟩,
      ⟨3, ![a, 1, c]⟩, ⟨3, ![a, 1, c]⟩, ⟨3, ![a, 1, c]⟩, ⟨3, ![a, 1, c]⟩] ⟨3, ![a, 9, c]⟩ 1)
    (p : Fin a) (n : Fin 9) (l : Fin c) :
    concatenate ⟨3, ![a, 9, c]⟩ 1 [⟨⟨3, ![a, 1, c]⟩, shapeCast ⟨3, ![a, 1, c]⟩ y0 hc⟩,
        ⟨⟨3, ![a, 1, c]⟩, shapeCast ⟨3, ![a, 1, c]⟩ y1 hc⟩, ⟨⟨3, ![a, 1, c]⟩, shapeCast ⟨3, ![a, 1, c]⟩ y2 hc⟩,
        ⟨⟨3, ![a, 1, c]⟩, shapeCast ⟨3, ![a, 1, c]⟩ y3 hc⟩, ⟨⟨3, ![a, 1, c]⟩, shapeCast ⟨3, ![a, 1, c]⟩ y4 hc⟩,
        ⟨⟨3, ![a, 1, c]⟩, shapeCast ⟨3, ![a, 1, c]⟩ y5 hc⟩, ⟨⟨3, ![a, 1, c]⟩, shapeCast ⟨3, ![a, 1, c]⟩ y6 hc⟩,
        ⟨⟨3, ![a, 1, c]⟩, shapeCast ⟨3, ![a, 1, c]⟩ y7 hc⟩, ⟨⟨3, ![a, 1, c]⟩, shapeCast ⟨3, ![a, 1, c]⟩ y8 hc⟩] h (ix3 p n l)
      = pick9 (y0 (ix2 p l)) (y1 (ix2 p l)) (y2 (ix2 p l)) (y3 (ix2 p l)) (y4 (ix2 p l)) (y5 (ix2 p l))
          (y6 (ix2 p l)) (y7 (ix2 p l)) (y8 (ix2 p l)) n := by
  refine (concat9_apply _ _ _ _ _ _ _ _ _ h p n l).trans ?_
  fin_cases n <;> exact addMid_apply _ hc p 0 l

end Stack

/-! ## The de-interleaved channels -/

/-- The first block as [632, 4, 128]: word k of quaternion l of row r. -/
theorem pay2_apply (v0 : Vec F S632x512 .f32) (r : Fin 632) (k : Fin 4) (l : Fin 128) (q : Fin 512)
    (hq : q.val = l.val * 4 + k.val) : k0_pay2 v0 (ix3 r k l) = v0 (ix2 r q) := by
  unfold k0_pay2
  rw [transpose_ix3_021_apply, Cert.Lib.GroupedLanes.split_apply _ _ (by norm_num) r l k q hq, shapeCast_self]

/-- The second block as [632, 3, 128]: log-scale k of gaussian l of row r. -/
theorem pay3_apply (v2 : Vec F S632x384 .f32) (r : Fin 632) (k : Fin 3) (l : Fin 128) (p : Fin 384)
    (hp : p.val = l.val * 3 + k.val) : k0_pay3 v2 (ix3 r k l) = v2 (ix2 r p) := by
  unfold k0_pay3
  rw [transpose_ix3_021_apply, Cert.Lib.GroupedLanes.split_apply _ _ (by norm_num) r l k p hp, shapeCast_self]

/-- Word 0 of quaternion l of row r. -/
theorem pay4_apply (v0 : Vec F S632x512 .f32) (r : Fin 632) (l : Fin 128) (q : Fin 512) (hq : q.val = l.val * 4) :
    k0_pay4 v0 (ix2 r l) = v0 (ix2 r q) := by
  unfold k0_pay4
  rw [dropMid_apply, sliceMid_apply 0 _ _ r 0 l (0 : Fin 4) rfl]
  exact pay2_apply v0 r 0 l q (by show q.val = l.val * 4 + 0; omega)

/-- Word 1 of quaternion l of row r. -/
theorem pay5_apply (v0 : Vec F S632x512 .f32) (r : Fin 632) (l : Fin 128) (q : Fin 512) (hq : q.val = l.val * 4 + 1) :
    k0_pay5 v0 (ix2 r l) = v0 (ix2 r q) := by
  unfold k0_pay5
  rw [dropMid_apply, sliceMid_apply 1 _ _ r 0 l (1 : Fin 4) rfl]
  exact pay2_apply v0 r 1 l q (by show q.val = l.val * 4 + 1; omega)

/-- Word 2 of quaternion l of row r. -/
theorem pay6_apply (v0 : Vec F S632x512 .f32) (r : Fin 632) (l : Fin 128) (q : Fin 512) (hq : q.val = l.val * 4 + 2) :
    k0_pay6 v0 (ix2 r l) = v0 (ix2 r q) := by
  unfold k0_pay6
  rw [dropMid_apply, sliceMid_apply 2 _ _ r 0 l (2 : Fin 4) rfl]
  exact pay2_apply v0 r 2 l q (by show q.val = l.val * 4 + 2; omega)

/-- Word 3 of quaternion l of row r. -/
theorem pay7_apply (v0 : Vec F S632x512 .f32) (r : Fin 632) (l : Fin 128) (q : Fin 512) (hq : q.val = l.val * 4 + 3) :
    k0_pay7 v0 (ix2 r l) = v0 (ix2 r q) := by
  unfold k0_pay7
  rw [dropMid_apply, sliceMid_apply 3 _ _ r 0 l (3 : Fin 4) rfl]
  exact pay2_apply v0 r 3 l q (by show q.val = l.val * 4 + 3; omega)

/-! ## The pointwise part, as scalar functions of what it reads -/

section Scalars

/-- The nine entries of M · Mᵀ as stored: entry 3 i + j is the product of rows min i j and max i j. -/
def covOf (M : Fin 9 → F .f32) : Fin 9 → F .f32 :=
  pick9 (Cert.Spec.rowDot M 0 0) (Cert.Spec.rowDot M 0 1) (Cert.Spec.rowDot M 0 2)
    (Cert.Spec.rowDot M 0 1) (Cert.Spec.rowDot M 1 1) (Cert.Spec.rowDot M 1 2)
    (Cert.Spec.rowDot M 0 2) (Cert.Spec.rowDot M 1 2) (Cert.Spec.rowDot M 2 2)

/-- The rotation of the quaternion (W, X, Y, Z) with its columns scaled by ea, eb, ed. -/
def rsOf (W X Y Z ea eb ed : F .f32) : Fin 9 → F .f32 :=
  pick9 (FloatOps.mulf (Cert.Spec.rot W X Y Z 0) ea) (FloatOps.mulf (Cert.Spec.rot W X Y Z 1) eb)
    (FloatOps.mulf (Cert.Spec.rot W X Y Z 2) ed) (FloatOps.mulf (Cert.Spec.rot W X Y Z 3) ea)
    (FloatOps.mulf (Cert.Spec.rot W X Y Z 4) eb) (FloatOps.mulf (Cert.Spec.rot W X Y Z 5) ed)
    (FloatOps.mulf (Cert.Spec.rot W X Y Z 6) ea) (FloatOps.mulf (Cert.Spec.rot W X Y Z 7) eb)
    (FloatOps.mulf (Cert.Spec.rot W X Y Z 8) ed)

/-- What the last part of the body computes at one gaussian, from the scalars it reads there: the three exponentials,
    the normalised third quaternion word Y, the first eight rotation entries, and the two values P, T the ninth entry
    P − (T · Y) · Y is completed from. -/
def tail (ea eb ed Y R0 R1 R2 R3 R4 R5 R6 R7 P T : F .f32) : Fin 9 → F .f32 :=
  covOf (pick9 (FloatOps.mulf R0 ea) (FloatOps.mulf R1 eb) (FloatOps.mulf R2 ed) (FloatOps.mulf R3 ea)
    (FloatOps.mulf R4 eb) (FloatOps.mulf R5 ed) (FloatOps.mulf R6 ea) (FloatOps.mulf R7 eb)
    (FloatOps.mulf (FloatOps.subf P (FloatOps.mulf (FloatOps.mulf T Y) Y)) ed))

/-- The specification's entries are those of the scaled rotation of the normalised quaternion. -/
theorem covK_eq (w x y z a b d : F .f32) (c : Fin 9) :
    Cert.Spec.covK w x y z a b d c
      = covOf (rsOf (FloatOps.mulf w (Cert.Spec.invNorm w x y z)) (FloatOps.mulf x (Cert.Spec.invNorm w x y z))
          (FloatOps.mulf y (Cert.Spec.invNorm w x y z)) (FloatOps.mulf z (Cert.Spec.invNorm w x y z))
          (FloatOps.exp a) (FloatOps.exp b) (FloatOps.exp d)) c := by
  fin_cases c <;> rfl

end Scalars

/-! ## The normalised quaternion -/

/-- The reciprocal norm of quaternion l of row r. -/
theorem pay8_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay8 v0 (ix2 r l) = (Cert.Spec.invNorm (v0 (ix2 r q0)) (v0 (ix2 r q1)) (v0 (ix2 r q2)) (v0 (ix2 r q3))) := by
  rw [← pay4_apply v0 r l q0 h0, ← pay5_apply v0 r l q1 h1, ← pay6_apply v0 r l q2 h2, ← pay7_apply v0 r l q3 h3]
  rfl

/-- Word 0 of the normalised quaternion. -/
theorem pay9_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay9 v0 (ix2 r l) = FloatOps.mulf (v0 (ix2 r q0)) (Cert.Spec.invNorm (v0 (ix2 r q0)) (v0 (ix2 r q1)) (v0 (ix2 r q2)) (v0 (ix2 r q3))) := by
  rw [← pay8_apply v0 r l q0 q1 q2 q3 h0 h1 h2 h3, ← pay4_apply v0 r l q0 h0]
  rfl

/-- Word 1 of the normalised quaternion. -/
theorem pay10_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay10 v0 (ix2 r l) = FloatOps.mulf (v0 (ix2 r q1)) (Cert.Spec.invNorm (v0 (ix2 r q0)) (v0 (ix2 r q1)) (v0 (ix2 r q2)) (v0 (ix2 r q3))) := by
  rw [← pay8_apply v0 r l q0 q1 q2 q3 h0 h1 h2 h3, ← pay5_apply v0 r l q1 h1]
  rfl

/-- Word 2 of the normalised quaternion. -/
theorem pay11_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay11 v0 (ix2 r l) = FloatOps.mulf (v0 (ix2 r q2)) (Cert.Spec.invNorm (v0 (ix2 r q0)) (v0 (ix2 r q1)) (v0 (ix2 r q2)) (v0 (ix2 r q3))) := by
  rw [← pay8_apply v0 r l q0 q1 q2 q3 h0 h1 h2 h3, ← pay6_apply v0 r l q2 h2]
  rfl

/-- Word 3 of the normalised quaternion. -/
theorem pay12_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay12 v0 (ix2 r l) = FloatOps.mulf (v0 (ix2 r q3)) (Cert.Spec.invNorm (v0 (ix2 r q0)) (v0 (ix2 r q1)) (v0 (ix2 r q2)) (v0 (ix2 r q3))) := by
  rw [← pay8_apply v0 r l q0 q1 q2 q3 h0 h1 h2 h3, ← pay7_apply v0 r l q3 h3]
  rfl

/-! ## The rotation entries and the products -/

/-- The values the last part of the body is given are the rotation entries of the normalised quaternion: its result is
    the scaled rotation times its transpose. -/
theorem tail_rot (v0 : Vec F S632x512 .f32) (i : S632x128.Idx) (ea eb ed : F .f32) (c : Fin 9) :
    tail ea eb ed (k0_pay11 v0 i) (k0_pay13 v0 i) (k0_pay14 v0 i)
        (k0_pay17 (k0_pay9 v0) (k0_pay11 v0) (k0_pay15 v0) k0_pay16 i)
        (k0_pay18 (k0_pay9 v0) (k0_pay10 v0) (k0_pay11 v0) (k0_pay12 v0) i)
        (k0_pay19 (k0_pay10 v0) (k0_pay12 v0) i)
        (k0_pay20 (k0_pay9 v0) (k0_pay10 v0) (k0_pay11 v0) (k0_pay12 v0) i)
        (k0_pay21 (k0_pay9 v0) (k0_pay10 v0) (k0_pay11 v0) (k0_pay12 v0) i)
        (k0_pay22 (k0_pay9 v0) (k0_pay10 v0) (k0_pay11 v0) (k0_pay12 v0) i)
        (k0_pay23 (k0_pay10 v0) i) (k0_pay24 i) c
      = covOf (rsOf (k0_pay9 v0 i) (k0_pay10 v0 i) (k0_pay11 v0 i) (k0_pay12 v0 i) ea eb ed) c := by
  fin_cases c <;> rfl

/-- The last part of the body at gaussian l of row r, entry c: the exponentials of the three log-scales, and the
    products of the scaled rows. -/
theorem pay25_apply (v7 : FVec F S632x3x128 .f32)
    (v26 v36 v43 v50 v57 v66 v73 v80 v87 v92 v93 : FVec F S632x128 .f32) (r : Fin 632) (l : Fin 128) (c : Fin 9) :
    k0_pay25 v7 v26 v36 v43 v50 v57 v66 v73 v80 v87 v92 v93 (ix3 r l c)
      = tail (FloatOps.exp (v7 (ix3 r (0 : Fin 3) l))) (FloatOps.exp (v7 (ix3 r (1 : Fin 3) l)))
          (FloatOps.exp (v7 (ix3 r (2 : Fin 3) l)))
          (v26 (ix2 r l)) (v36 (ix2 r l)) (v43 (ix2 r l)) (v50 (ix2 r l)) (v57 (ix2 r l)) (v66 (ix2 r l))
          (v73 (ix2 r l)) (v80 (ix2 r l)) (v87 (ix2 r l)) (v92 (ix2 r l)) (v93 (ix2 r l)) c := by
  have e0 : shapeCast S632x128 (extractStridedSlice S632x1x128 ![0, 0, 0] (exp v7) slices_S632x3x128_o0_0_0_S632x1x128)
      shapeCasts_S632x1x128_S632x128 (ix2 r l) = FloatOps.exp (v7 (ix3 r (0 : Fin 3) l)) := by
    rw [dropMid_apply, sliceMid_apply 0 _ _ r 0 l (0 : Fin 3) rfl]; rfl
  have e1 : shapeCast S632x128 (extractStridedSlice S632x1x128 ![0, 1, 0] (exp v7) slices_S632x3x128_o0_1_0_S632x1x128)
      shapeCasts_S632x1x128_S632x128 (ix2 r l) = FloatOps.exp (v7 (ix3 r (1 : Fin 3) l)) := by
    rw [dropMid_apply, sliceMid_apply 1 _ _ r 0 l (1 : Fin 3) rfl]; rfl
  have e2 : shapeCast S632x128 (extractStridedSlice S632x1x128 ![0, 2, 0] (exp v7) slices_S632x3x128_o0_2_0_S632x1x128)
      shapeCasts_S632x1x128_S632x128 (ix2 r l) = FloatOps.exp (v7 (ix3 r (2 : Fin 3) l)) := by
    rw [dropMid_apply, sliceMid_apply 2 _ _ r 0 l (2 : Fin 3) rfl]; rfl
  rw [← e0, ← e1, ← e2]
  unfold k0_pay25
  rw [transpose_ix3_021_apply, stack9_apply]
  fin_cases c <;> rfl

/-! ## The stored block -/

/-- The stored block at column l · 9 + c of row r is entry c of the covariance of gaussian l of that row, computed from
    the four quaternion words at columns l · 4 … l · 4 + 3 of the first block and the three log-scales at columns
    l · 3 … l · 3 + 2 of the second. -/
theorem stored_apply (v0 : Vec F S632x512 .f32) (v2 : Vec F S632x384 .f32) (r : Fin 632) (l : Fin 128) (c : Fin 9)
    (q : Fin 1152) (hq : q.val = l.val * 9 + c.val)
    (q0 q1 q2 q3 : Fin 512) (h0 : q0.val = l.val * 4) (h1 : q1.val = l.val * 4 + 1) (h2 : q2.val = l.val * 4 + 2) (h3 : q3.val = l.val * 4 + 3)
    (p0 p1 p2 : Fin 384) (g0 : p0.val = l.val * 3) (g1 : p1.val = l.val * 3 + 1) (g2 : p2.val = l.val * 3 + 2) :
    stored v0 v2 (ix2 r q)
      = Cert.Spec.covK (v0 (ix2 r q0)) (v0 (ix2 r q1)) (v0 (ix2 r q2)) (v0 (ix2 r q3)) (v2 (ix2 r p0)) (v2 (ix2 r p1)) (v2 (ix2 r p2)) c := by
  unfold stored k0_pay1
  rw [Cert.Lib.GroupedLanes.merge_apply _ _ (by norm_num) r q l c hq, pay25_apply,
    pay3_apply v2 r 0 l p0 (by show p0.val = l.val * 3 + 0; omega),
    pay3_apply v2 r 1 l p1 (by show p1.val = l.val * 3 + 1; omega),
    pay3_apply v2 r 2 l p2 (by show p2.val = l.val * 3 + 2; omega),
    tail_rot, pay9_apply v0 r l q0 q1 q2 q3 h0 h1 h2 h3, pay10_apply v0 r l q0 q1 q2 q3 h0 h1 h2 h3,
    pay11_apply v0 r l q0 q1 q2 q3 h0 h1 h2 h3, pay12_apply v0 r l q0 q1 q2 q3 h0 h1 h2 h3]
  exact (covK_eq _ _ _ _ _ _ _ c).symm

end Cert.KB
-- ==== Proof.RowsB.lean ====
/-
  Each row of the block the body stores is computed from the same row of the two blocks it loads.

  An entry of the stored block at row r, column 9 l + c is a function of seven words: columns 4 l … 4 l + 3 of row r of
  the first block and 3 l … 3 l + 2 of row r of the second. The transfers of a grid point move the same leading rows
  of all three windows and every column, so two pairs of blocks that agree on the moved rows give stored blocks that
  agree on the moved rows.
-/
import proofs.«158826_j11218454577222_2_alg».proof.Proof.BodyB
import proofs.«158826_j11218454577222_2_alg».proof.Proof.PayIdxB
import Idealize.ShloMosaic.Lib.ValueIdx

noncomputable section

namespace Cert.KB

open Cert.Kernel Cert.Kernel.Gen
open Idealize.ShloMosaic Idealize.ShloMosaic.ValueIdx Idealize.ShloMosaic.TcCoe
open Idealize.SL Idealize.SL.Sem

variable {F : FTy → Type} [FloatOps F]

/-- Contents of a window's block that agree on what a transfer moves agree at every index it moves. -/
theorem eq_of_cut_eq {G : Pipeline.Grid} (w : Pipeline.Window sig G) {α : Type} (i : G.Coords) {X Y : w.block.Idx → α}
    (h : w.cut i X = w.cut i Y) (k : w.block.Idx) (hk : ∀ a, (k a).val < w.xsize i a) : X k = Y k :=
  congrFun h (fun a => ⟨(k a).val, hk a⟩)

/-- At every grid point the two inputs' transfers move as many rows as the result's, and every column. -/
theorem moved_rows : ∀ t : Fin cfg0.N,
    win0_0.xsize (grid0.coords t) 0 = win0_2.xsize (grid0.coords t) 0 ∧ win0_1.xsize (grid0.coords t) 0 = win0_2.xsize (grid0.coords t) 0
    ∧ win0_0.xsize (grid0.coords t) 1 = 512 ∧ win0_1.xsize (grid0.coords t) 1 = 384 :=
  (by decide +kernel : ∀ t : Fin grid0.N, _)

theorem rowLocal : RowLocal F := by
  intro t A A' B B' hA hB
  obtain ⟨e0, e1, e2, e3⟩ := moved_rows t
  funext j
  show stored A B (win0_2.xinj (grid0.coords t) j) = stored A' B' (win0_2.xinj (grid0.coords t) j)
  have hr : (j 0).val < win0_2.xsize (grid0.coords t) 0 := (j 0).isLt
  have hr632 : (j 0).val < 632 := lt_of_lt_of_le hr (win0_2.xsize_le (grid0.coords t) 0)
  have hq1152 : (j 1).val < 1152 := lt_of_lt_of_le (j 1).isLt (win0_2.xsize_le (grid0.coords t) 1)
  have hidx : win0_2.xinj (grid0.coords t) j = ix2 (⟨(j 0).val, hr632⟩ : Fin 632) (⟨(j 1).val, hq1152⟩ : Fin 1152) := by
    funext a; match a with
    | ⟨0, _⟩ => rfl
    | ⟨1, _⟩ => rfl
  rw [hidx]
  have a0 : ∀ q0 : Fin 512, A (ix2 (⟨(j 0).val, hr632⟩ : Fin 632) q0) = A' (ix2 (⟨(j 0).val, hr632⟩ : Fin 632) q0) := fun q0 =>
    eq_of_cut_eq win0_0 (grid0.coords t) hA (ix2 (⟨(j 0).val, hr632⟩ : Fin 632) q0) (fun a => by
      match a with
      | ⟨0, _⟩ => show (j 0).val < win0_0.xsize (grid0.coords t) 0; rw [e0]; exact hr
      | ⟨1, _⟩ => show q0.val < win0_0.xsize (grid0.coords t) 1; rw [e2]; exact q0.isLt)
  have b0 : ∀ p0 : Fin 384, B (ix2 (⟨(j 0).val, hr632⟩ : Fin 632) p0) = B' (ix2 (⟨(j 0).val, hr632⟩ : Fin 632) p0) := fun p0 =>
    eq_of_cut_eq win0_1 (grid0.coords t) hB (ix2 (⟨(j 0).val, hr632⟩ : Fin 632) p0) (fun a => by
      match a with
      | ⟨0, _⟩ => show (j 0).val < win0_1.xsize (grid0.coords t) 0; rw [e1]; exact hr
      | ⟨1, _⟩ => show p0.val < win0_1.xsize (grid0.coords t) 1; rw [e3]; exact p0.isLt)
  have hl : (j 1).val / 9 < 128 := by omega
  have hc : (j 1).val % 9 < 9 := Nat.mod_lt _ (by norm_num)
  rw [stored_apply A B ⟨(j 0).val, hr632⟩ ⟨(j 1).val / 9, hl⟩ ⟨(j 1).val % 9, hc⟩ ⟨(j 1).val, hq1152⟩ (by show (j 1).val = (j 1).val / 9 * 9 + (j 1).val % 9; omega)
      ⟨(j 1).val / 9 * 4, by omega⟩ ⟨(j 1).val / 9 * 4 + 1, by omega⟩ ⟨(j 1).val / 9 * 4 + 2, by omega⟩ ⟨(j 1).val / 9 * 4 + 3, by omega⟩ rfl rfl rfl rfl
      ⟨(j 1).val / 9 * 3, by omega⟩ ⟨(j 1).val / 9 * 3 + 1, by omega⟩ ⟨(j 1).val / 9 * 3 + 2, by omega⟩ rfl rfl rfl,
    stored_apply A' B' ⟨(j 0).val, hr632⟩ ⟨(j 1).val / 9, hl⟩ ⟨(j 1).val % 9, hc⟩ ⟨(j 1).val, hq1152⟩ (by show (j 1).val = (j 1).val / 9 * 9 + (j 1).val % 9; omega)
      ⟨(j 1).val / 9 * 4, by omega⟩ ⟨(j 1).val / 9 * 4 + 1, by omega⟩ ⟨(j 1).val / 9 * 4 + 2, by omega⟩ ⟨(j 1).val / 9 * 4 + 3, by omega⟩ rfl rfl rfl rfl
      ⟨(j 1).val / 9 * 3, by omega⟩ ⟨(j 1).val / 9 * 3 + 1, by omega⟩ ⟨(j 1).val / 9 * 3 + 2, by omega⟩ rfl rfl rfl,
    a0, a0, a0, a0, b0, b0, b0]

end Cert.KB

end
-- ==== Proof.PayDefI.lean ====
/-
  What the kernel body stores into the result's staging buffer, as ONE function of the two blocks it loads: the
  generated payload definitions composed in the order the body's three parts pass values on. The first block holds
  632 rows of 128 quaternions (four words each, interleaved), the second 632 rows of 128 log-scale triples; the stored
  block holds 632 rows of 128 covariance matrices (nine words each, interleaved).
-/
import proofs.«158826_j11218454577222_2_alg».proof.Proof.Gen.KernelIdeal.Skeleton

noncomputable section

namespace Cert.KI

open Idealize.ShloMosaic Cert.KernelIdeal Cert.KernelIdeal.Gen

variable {F : FTy → Type} [FloatOps F]

/-- The stored block from the two loaded blocks. -/
def stored (v0 : Vec F S632x512 .f32) (v2 : Vec F S632x384 .f32) : FVec F S632x1152 .f32 :=
  k0_pay1 (k0_pay25 (k0_pay3 v2) (k0_pay11 v0) (k0_pay13 v0) (k0_pay14 v0)
    (k0_pay17 (k0_pay9 v0) (k0_pay11 v0) (k0_pay15 v0) k0_pay16)
    (k0_pay18 (k0_pay9 v0) (k0_pay10 v0) (k0_pay11 v0) (k0_pay12 v0))
    (k0_pay19 (k0_pay10 v0) (k0_pay12 v0))
    (k0_pay20 (k0_pay9 v0) (k0_pay10 v0) (k0_pay11 v0) (k0_pay12 v0))
    (k0_pay21 (k0_pay9 v0) (k0_pay10 v0) (k0_pay11 v0) (k0_pay12 v0))
    (k0_pay22 (k0_pay9 v0) (k0_pay10 v0) (k0_pay11 v0) (k0_pay12 v0))
    (k0_pay23 (k0_pay10 v0)) k0_pay24)

end Cert.KI

end
-- ==== Proof.BodyI.lean ====
/-
  The frame run of the pallas_call, with every staging buffer's contents NAMED.

  The call walks fifty grid points. At point t the pipeline fetches rows 632 t … 632 t + 631 of the two reshaped input
  arrays (31250 rows each) into staging buffers, runs the body, and writes the result's staging buffer back to the same
  rows of the result array. 632 · 50 = 31600 > 31250: the last block overhangs the arrays by 350 rows; its fetch
  lands only the 282 rows inside the array and leaves the rest of the buffer at words nothing names, and its write-back
  writes only those 282 rows. So the body is specified on ARBITRARY buffer contents: from blocks x0, x1 it leaves
  `stored x0 x1` in the result's buffer and x0, x1 where they were. What the run then needs is that the rows of
  `stored x0 x1` inside the array do not depend on the unnamed rows of x0, x1 — each stored row is computed from the same
  row of the inputs (`RowLocal`, proved in its own module from the body's arithmetic read at an index).
-/
import proofs.«158826_j11218454577222_2_alg».proof.Proof.Gen.KernelIdeal.Frame
import proofs.«158826_j11218454577222_2_alg».proof.Proof.Gen.KernelIdeal.Skeleton
import proofs.«158826_j11218454577222_2_alg».proof.Proof.PayDefI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on arbitrary buffer contents -/

/-- The body's three accesses are of the whole buffers. -/
abbrev r512 : Rect S632x512 := Rect.unit (s := S632x512) ![0, 0] S632x512.size inb_S632x512_S632x512_0_0
abbrev r384 : Rect S632x384 := Rect.unit (s := S632x384) ![0, 0] S632x384.size inb_S632x384_S632x384_0_0
abbrev r1152 : Rect S632x1152 := Rect.unit (s := S632x1152) ![0, 0] S632x1152.size inb_S632x1152_S632x1152_0_0

theorem hz2 : (![0, 0] : Fin 2 → Nat) = fun _ => 0 := funext fun a => by fin_cases a <;> rfl

/-- The one store covers the result's buffer. -/
theorem cover2 (p0 : Vec F S632x1152 .f32) (y : S632x1152.Idx) :
    ∃ pc ∈ ([⟨r1152, p0⟩] : List (View.Piece (Elt F) S632x1152 .f32)), y ∈ pc.1.set :=
  View.cover_of_tiled [⟨r1152, p0⟩] S632x1152.size (by rfl) y

/-- What the result's buffer holds after the one store of the block computed from the two whole loads. -/
theorem canon_stored (x0 : Vec F S632x512 .f32) (x1 : Vec F S632x384 .f32) :
    View.canon [(⟨r1152, stored (View.ld x0 r512) (View.ld x1 r384)⟩ : View.Piece (Elt F) S632x1152 .f32)] = stored x0 x1 := by
  rw [View.canon_unit_zero hz2, View.ld_unit_zero (S := S632x512) hz2, View.ld_unit_zero (S := S632x384) hz2]

set_option maxHeartbeats 1000000 in
/-- The kernel body on whole staging memrefs, the inputs' at contents x0, x1 and the result's at anything, runs to the
    continuation with the inputs' as they were and the result's at `stored x0 x1`. -/
theorem sound_kernel (c : Dev nD) (E : Set ℕ) (i : grid0.Coords)
    (arg1 : Memref sig .tc .vmem S632x512 .f32) (harg1 : arg1.IsWhole) (arg2 : Memref sig .tc .vmem S632x384 .f32) (harg2 : arg2.IsWhole)
    (arg3 : Memref sig .tc .vmem S632x1152 .f32) (harg3 : arg3.IsWhole)
    (x0 : Vec F S632x512 .f32) (x1 : Vec F S632x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__gaussian_cov_kernel i arg1 harg1 arg2 harg2 arg3 harg3) K := by
  simp only [cc0__gaussian_cov_kernel_eq_skeleton]; unfold cc0__gaussian_cov_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [View.read_writes_eq_canon _ _ _ (cover2 _)]
  exact canon_stored (View.read (Elt F) arg1.view f0) (View.read (Elt F) arg2.view f1)

/-! ## The proof data -/

/-- Each stored row depends on the same row of the two loaded blocks only: blocks that agree on the rows a point's
    transfers move give stored blocks that agree on the rows its write-back moves. -/
def RowLocal (F : FTy → Type) [FloatOps F] : Prop :=
  ∀ (t : Fin cfg0.N) (A A' : Vec F S632x512 .f32) (B B' : Vec F S632x384 .f32),
    win0_0.cut (grid0.coords t) A = win0_0.cut (grid0.coords t) A' →
    win0_1.cut (grid0.coords t) B = win0_1.cut (grid0.coords t) B' →
    win0_2.cut (grid0.coords t) (stored A B) = win0_2.cut (grid0.coords t) (stored A' B')

/-- The first input's staging buffer after the body at point t: the block's rows inside the array, and the zero
    word on the rows past its end (which nothing reads back: the obligation states the buffers on the moved rows only). -/
def in0 (c : Dev nD) (t : Fin cfg0.N) : S632x512.Idx → Elt F .f32 :=
  win0_0.fill (grid0.coords t) (fun _ => Scalar.ofBits .f32 0#32) (iblk m c 0 t)
/-- The second input's likewise. -/
def in1 (c : Dev nD) (t : Fin cfg0.N) : S632x384.Idx → Elt F .f32 :=
  win0_1.fill (grid0.coords t) (fun _ => Scalar.ofBits .f32 0#32) (iblk m c 1 t)

/-- The result's staging buffer after the body at point t: the block stored from those two. -/
def out2 (c : Dev nD) (t : Fin cfg0.N) : S632x1152.Idx → Elt F .f32 := stored (in0 m c t) (in1 m c t)

/-- The proof data of the pipeline on core c: the arrays as the region finds them; after the body at point t the two
    inputs' buffers at their blocks and the result's at the block stored from them; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => out2 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = in0 m c t := by dsimp only [dats]
theorem after1 (c : Dev nD) (t : Fin cfg0.N) : (dats m 0 c).after 1 t = in1 m c t := by dsimp only [dats]
theorem after2 (c : Dev nD) (t : Fin cfg0.N) : (dats m 0 c).after 2 t = out2 m c t := by dsimp only [dats]

/-- The result's window is never fetched. -/
theorem fetch0_2 : ∀ t : Fin cfg0.N, (cfg0.win 2).fetch t = false :=
  (by decide +kernel : ∀ t : Fin grid0.N, win0_2.fetch t = false)

/-- What the body finds: each input's buffer just fetched — the block on the rows inside the array, d elsewhere —, -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl
/-- and the result's at contents nothing names (every point writes it back, so it is fresh at the next). -/
theorem before2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body obligation -/

theorem body_obligation (hloc : RowLocal F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (in0 m c t) = iblk m c 0 t := win0_0.cut_fill _ _ _
  have hy : win0_1.cut (grid0.coords t) (in1 m c t) = iblk m c 1 t := win0_1.cut_fill _ _ _
  have hs : win0_2.cut (grid0.coords t) (stored (win0_0.fill (grid0.coords t) d0 (iblk m c 0 t)) (win0_1.fill (grid0.coords t) d1 (iblk m c 1 t)))
      = win0_2.cut (grid0.coords t) (out2 m c t) :=
    hloc t _ _ _ _ ((win0_0.cut_fill _ _ _).trans hx.symm) ((win0_1.cut_fill _ _ _).trans hy.symm)
  isplitl [H0]
  · iexists d0
    change _ ⊢ owns (c : Thread nD τ) (stage0_0 (cfg0.slots t 0)) fullShare (win0_0.fill (grid0.coords t) d0 (win0_0.cut (grid0.coords t) (in0 m c t)))
    rw [hx]; try iexact H0
  isplitl [H1]
  · iexists d1
    change _ ⊢ owns (c : Thread nD τ) (stage0_1 (cfg0.slots t 1)) fullShare (win0_1.fill (grid0.coords t) d1 (win0_1.cut (grid0.coords t) (in1 m c t)))
    rw [hy]; try iexact H1
  · iexists (stored (win0_0.fill (grid0.coords t) d0 (iblk m c 0 t)) (win0_1.fill (grid0.coords t) d1 (iblk m c 1 t)) : S632x1152.Idx → Elt F .f32)
    change _ ⊢ owns (c : Thread nD τ) (stage0_2 (cfg0.slots t 2)) fullShare (win0_2.fill (grid0.coords t) _ (win0_2.cut (grid0.coords t) (out2 m c t)))
    rw [win0_2.fill_congr_cut (grid0.coords t) hs]; try iexact H2

/-! ## The run and the frame -/

set_option backward.isDefEq.respectTransparency.types false in
/-- At the compiled mesh, for any values, from any memory with zero counters: every weakly fair execution of @main
    terminates, every array of the pipeline ends at what the write-backs of the named buffers make of it, and every
    other unscoped buffer at what the host lines after the region compute from those. -/
theorem run_main (hloc : RowLocal F) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays as they were. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hloc)

end Cert.KI

end
-- ==== Proof.PayIdxI.lean ====
/-
  The block the kernel body stores, read at one index, for every float instance.

  The body de-interleaves its two loaded blocks — a row of the first holds 128 quaternions of four words, word k of
  quaternion l at column l · 4 + k; a row of the second 128 log-scale triples, column l · 3 + k — by a cast to
  [632, 128, 4] / [632, 128, 3], a transpose of the last two axes and one slice per channel; it then works pointwise on
  [632, 128] arrays, stacks its nine results along a new middle axis, transposes back and casts to [632, 1152], entry
  c of gaussian l at column l · 9 + c. Read at (r, l · 9 + c), every layout operation names one index of its operand,
  and the pointwise operations are the float instance's own applied to the values at (r, l): what is left is the
  specification's scalar function of the seven words of gaussian l of row r.
-/
import proofs.«158826_j11218454577222_2_alg».proof.Proof.PayDefI
import proofs.«158826_j11218454577222_2_alg».proof.Proof.Spec
import proofs.«158826_j11218454577222_2_alg».proof.Proof.LibGroupedLanes
import Idealize.ShloMosaic.Lib.Pipeline.Value
import Idealize.ShloMosaic.Lib.ValueIdx
import Idealize.ShloMosaic.Lib.ValueLayout

namespace Cert.KI

open Idealize.ShloMosaic Idealize.ShloMosaic.ValueIdx Cert.KernelIdeal Cert.KernelIdeal.Gen

variable {F : FTy → Type} [FloatOps F]

/-! ## Layout operations of the body, read at coordinates -/

section Layout
variable {α : Type} {a b c : ℕ}

/-- An [a, 1, c] array cast to [a, c] reads, at (p, l), the operand at (p, 0, l). -/
theorem dropMid_apply (x : (⟨3, ![a, 1, c]⟩ : Shape).Idx → α) (h : (⟨3, ![a, 1, c]⟩ : Shape).ShapeCasts ⟨2, ![a, c]⟩)
    (p : Fin a) (l : Fin c) : shapeCast ⟨2, ![a, c]⟩ x h (ix2 p l) = x (ix3 p (0 : Fin 1) l) :=
  shapeCast_apply x h _ _ (by
    rw [Shape.rowMajor_val_three, Shape.rowMajor_val_two]
    show (p.val * 1 + 0) * c + l.val = p.val * c + l.val
    rw [Nat.mul_one, Nat.add_zero])

/-- An [a, c] array cast to [a, 1, c] reads, at (p, u, l), the operand at (p, l), whatever the unit coordinate. -/
theorem addMid_apply (x : (⟨2, ![a, c]⟩ : Shape).Idx → α) (h : (⟨2, ![a, c]⟩ : Shape).ShapeCasts ⟨3, ![a, 1, c]⟩)
    (p : Fin a) (u : Fin 1) (l : Fin c) : shapeCast ⟨3, ![a, 1, c]⟩ x h (ix3 p u l) = x (ix2 p l) :=
  shapeCast_apply x h _ _ (by
    have hu : u.val = 0 := by omega
    rw [Shape.rowMajor_val_two, Shape.rowMajor_val_three]
    show p.val * c + l.val = (p.val * 1 + u.val) * c + l.val
    rw [hu, Nat.mul_one, Nat.add_zero])

/-- The slice of an [a, b, c] array that keeps the one middle coordinate o reads, at (p, u, l), the operand at (p, o, l). -/
theorem sliceMid_apply (o : ℕ) (x : (⟨3, ![a, b, c]⟩ : Shape).Idx → α)
    (h : (⟨3, ![a, b, c]⟩ : Shape).Slices ![0, o, 0] ⟨3, ![a, 1, c]⟩) (p : Fin a) (u : Fin 1) (l : Fin c) (g : Fin b)
    (hg : g.val = o) : extractStridedSlice ⟨3, ![a, 1, c]⟩ ![0, o, 0] x h (ix3 p u l) = x (ix3 p g l) :=
  extractStridedSlice_apply _ x h _ _ fun ax => match ax with
    | ⟨0, _⟩ => by show p.val = 0 + p.val; omega
    | ⟨1, _⟩ => by show g.val = o + u.val; omega
    | ⟨2, _⟩ => by show l.val = 0 + l.val; omega

end Layout

/-- One of nine values, by its number. -/
def pick9 {β : Type} (x0 x1 x2 x3 x4 x5 x6 x7 x8 : β) : Fin 9 → β
  | 0 => x0 | 1 => x1 | 2 => x2 | 3 => x3 | 4 => x4 | 5 => x5 | 6 => x6 | 7 => x7 | 8 => x8

section Concat
variable {α : Type} {a c : ℕ}

/-- Nine [a, 1, c] pieces laid along the middle axis: at (p, n, l) the result reads piece n at (p, 0, l). -/
theorem concat9_apply (x0 x1 x2 x3 x4 x5 x6 x7 x8 : (⟨3, ![a, 1, c]⟩ : Shape).Idx → α)
    (h : Shape.Concatenates [⟨3, ![a, 1, c]⟩, ⟨3, ![a, 1, c]⟩, ⟨3, ![a, 1, c]⟩, ⟨3, ![a, 1, c]⟩, ⟨3, ![a, 1, c]⟩,
      ⟨3, ![a, 1, c]⟩, ⟨3, ![a, 1, c]⟩, ⟨3, ![a, 1, c]⟩, ⟨3, ![a, 1, c]⟩] ⟨3, ![a, 9, c]⟩ 1)
    (p : Fin a) (n : Fin 9) (l : Fin c) :
    concatenate ⟨3, ![a, 9, c]⟩ 1 [⟨⟨3, ![a, 1, c]⟩, x0⟩, ⟨⟨3, ![a, 1, c]⟩, x1⟩, ⟨⟨3, ![a, 1, c]⟩, x2⟩,
        ⟨⟨3, ![a, 1, c]⟩, x3⟩, ⟨⟨3, ![a, 1, c]⟩, x4⟩, ⟨⟨3, ![a, 1, c]⟩, x5⟩, ⟨⟨3, ![a, 1, c]⟩, x6⟩,
        ⟨⟨3, ![a, 1, c]⟩, x7⟩, ⟨⟨3, ![a, 1, c]⟩, x8⟩] h (ix3 p n l)
      = pick9 x0 x1 x2 x3 x4 x5 x6 x7 x8 n (ix3 p (0 : Fin 1) l) :=
  concatenate_ofFn_unit_apply (t := ⟨3, ![a, 9, c]⟩) (s₁ := ⟨3, ![a, 1, c]⟩) (1 : Fin 3)
    (pick9 x0 x1 x2 x3 x4 x5 x6 x7 x8) h rfl rfl (ix3 p n l) n rfl (ix3 p (0 : Fin 1) l)
    (fun b hb => match b, hb with
      | ⟨0, _⟩, _ => rfl
      | ⟨1, _⟩, hb => absurd rfl hb
      | ⟨2, _⟩, _ => rfl)

end Concat

section Stack
variable {α : Type} {a c : ℕ}

/-- Nine [a, c] arrays, each cast to [a, 1, c], laid along the middle axis: at (p, n, l) the result reads array n at (p, l). -/
theorem stack9_apply (y0 y1 y2 y3 y4 y5 y6 y7 y8 : (⟨2, ![a, c]⟩ : Shape).Idx → α)
    (hc : (⟨2, ![a, c]⟩ : Shape).ShapeCasts ⟨3, ![a, 1, c]⟩)
    (h : Shape.Concatenates [⟨3, ![a, 1, c]⟩, ⟨3, ![a, 1, c]⟩, ⟨3, ![a, 1, c]⟩, ⟨3, ![a, 1, c]⟩, ⟨3, ![a, 1, c]⟩,
      ⟨3, ![a, 1, c]⟩, ⟨3, ![a, 1, c]⟩, ⟨3, ![a, 1, c]⟩, ⟨3, ![a, 1, c]⟩] ⟨3, ![a, 9, c]⟩ 1)
    (p : Fin a) (n : Fin 9) (l : Fin c) :
    concatenate ⟨3, ![a, 9, c]⟩ 1 [⟨⟨3, ![a, 1, c]⟩, shapeCast ⟨3, ![a, 1, c]⟩ y0 hc⟩,
        ⟨⟨3, ![a, 1, c]⟩, shapeCast ⟨3, ![a, 1, c]⟩ y1 hc⟩, ⟨⟨3, ![a, 1, c]⟩, shapeCast ⟨3, ![a, 1, c]⟩ y2 hc⟩,
        ⟨⟨3, ![a, 1, c]⟩, shapeCast ⟨3, ![a, 1, c]⟩ y3 hc⟩, ⟨⟨3, ![a, 1, c]⟩, shapeCast ⟨3, ![a, 1, c]⟩ y4 hc⟩,
        ⟨⟨3, ![a, 1, c]⟩, shapeCast ⟨3, ![a, 1, c]⟩ y5 hc⟩, ⟨⟨3, ![a, 1, c]⟩, shapeCast ⟨3, ![a, 1, c]⟩ y6 hc⟩,
        ⟨⟨3, ![a, 1, c]⟩, shapeCast ⟨3, ![a, 1, c]⟩ y7 hc⟩, ⟨⟨3, ![a, 1, c]⟩, shapeCast ⟨3, ![a, 1, c]⟩ y8 hc⟩] h (ix3 p n l)
      = pick9 (y0 (ix2 p l)) (y1 (ix2 p l)) (y2 (ix2 p l)) (y3 (ix2 p l)) (y4 (ix2 p l)) (y5 (ix2 p l))
          (y6 (ix2 p l)) (y7 (ix2 p l)) (y8 (ix2 p l)) n := by
  refine (concat9_apply _ _ _ _ _ _ _ _ _ h p n l).trans ?_
  fin_cases n <;> exact addMid_apply _ hc p 0 l

end Stack

/-! ## The de-interleaved channels -/

/-- The first block as [632, 4, 128]: word k of quaternion l of row r. -/
theorem pay2_apply (v0 : Vec F S632x512 .f32) (r : Fin 632) (k : Fin 4) (l : Fin 128) (q : Fin 512)
    (hq : q.val = l.val * 4 + k.val) : k0_pay2 v0 (ix3 r k l) = v0 (ix2 r q) := by
  unfold k0_pay2
  rw [transpose_ix3_021_apply, Cert.Lib.GroupedLanes.split_apply _ _ (by norm_num) r l k q hq, shapeCast_self]

/-- The second block as [632, 3, 128]: log-scale k of gaussian l of row r. -/
theorem pay3_apply (v2 : Vec F S632x384 .f32) (r : Fin 632) (k : Fin 3) (l : Fin 128) (p : Fin 384)
    (hp : p.val = l.val * 3 + k.val) : k0_pay3 v2 (ix3 r k l) = v2 (ix2 r p) := by
  unfold k0_pay3
  rw [transpose_ix3_021_apply, Cert.Lib.GroupedLanes.split_apply _ _ (by norm_num) r l k p hp, shapeCast_self]

/-- Word 0 of quaternion l of row r. -/
theorem pay4_apply (v0 : Vec F S632x512 .f32) (r : Fin 632) (l : Fin 128) (q : Fin 512) (hq : q.val = l.val * 4) :
    k0_pay4 v0 (ix2 r l) = v0 (ix2 r q) := by
  unfold k0_pay4
  rw [dropMid_apply, sliceMid_apply 0 _ _ r 0 l (0 : Fin 4) rfl]
  exact pay2_apply v0 r 0 l q (by show q.val = l.val * 4 + 0; omega)

/-- Word 1 of quaternion l of row r. -/
theorem pay5_apply (v0 : Vec F S632x512 .f32) (r : Fin 632) (l : Fin 128) (q : Fin 512) (hq : q.val = l.val * 4 + 1) :
    k0_pay5 v0 (ix2 r l) = v0 (ix2 r q) := by
  unfold k0_pay5
  rw [dropMid_apply, sliceMid_apply 1 _ _ r 0 l (1 : Fin 4) rfl]
  exact pay2_apply v0 r 1 l q (by show q.val = l.val * 4 + 1; omega)

/-- Word 2 of quaternion l of row r. -/
theorem pay6_apply (v0 : Vec F S632x512 .f32) (r : Fin 632) (l : Fin 128) (q : Fin 512) (hq : q.val = l.val * 4 + 2) :
    k0_pay6 v0 (ix2 r l) = v0 (ix2 r q) := by
  unfold k0_pay6
  rw [dropMid_apply, sliceMid_apply 2 _ _ r 0 l (2 : Fin 4) rfl]
  exact pay2_apply v0 r 2 l q (by show q.val = l.val * 4 + 2; omega)

/-- Word 3 of quaternion l of row r. -/
theorem pay7_apply (v0 : Vec F S632x512 .f32) (r : Fin 632) (l : Fin 128) (q : Fin 512) (hq : q.val = l.val * 4 + 3) :
    k0_pay7 v0 (ix2 r l) = v0 (ix2 r q) := by
  unfold k0_pay7
  rw [dropMid_apply, sliceMid_apply 3 _ _ r 0 l (3 : Fin 4) rfl]
  exact pay2_apply v0 r 3 l q (by show q.val = l.val * 4 + 3; omega)

/-! ## The pointwise part, as scalar functions of what it reads -/

section Scalars

/-- The nine entries of M · Mᵀ as stored: entry 3 i + j is the product of rows min i j and max i j. -/
def covOf (M : Fin 9 → F .f32) : Fin 9 → F .f32 :=
  pick9 (Cert.Spec.rowDot M 0 0) (Cert.Spec.rowDot M 0 1) (Cert.Spec.rowDot M 0 2)
    (Cert.Spec.rowDot M 0 1) (Cert.Spec.rowDot M 1 1) (Cert.Spec.rowDot M 1 2)
    (Cert.Spec.rowDot M 0 2) (Cert.Spec.rowDot M 1 2) (Cert.Spec.rowDot M 2 2)

/-- The rotation of the quaternion (W, X, Y, Z) with its columns scaled by ea, eb, ed. -/
def rsOf (W X Y Z ea eb ed : F .f32) : Fin 9 → F .f32 :=
  pick9 (FloatOps.mulf (Cert.Spec.rot W X Y Z 0) ea) (FloatOps.mulf (Cert.Spec.rot W X Y Z 1) eb)
    (FloatOps.mulf (Cert.Spec.rot W X Y Z 2) ed) (FloatOps.mulf (Cert.Spec.rot W X Y Z 3) ea)
    (FloatOps.mulf (Cert.Spec.rot W X Y Z 4) eb) (FloatOps.mulf (Cert.Spec.rot W X Y Z 5) ed)
    (FloatOps.mulf (Cert.Spec.rot W X Y Z 6) ea) (FloatOps.mulf (Cert.Spec.rot W X Y Z 7) eb)
    (FloatOps.mulf (Cert.Spec.rot W X Y Z 8) ed)

/-- What the last part of the body computes at one gaussian, from the scalars it reads there: the three exponentials,
    the normalised third quaternion word Y, the first eight rotation entries, and the two values P, T the ninth entry
    P − (T · Y) · Y is completed from. -/
def tail (ea eb ed Y R0 R1 R2 R3 R4 R5 R6 R7 P T : F .f32) : Fin 9 → F .f32 :=
  covOf (pick9 (FloatOps.mulf R0 ea) (FloatOps.mulf R1 eb) (FloatOps.mulf R2 ed) (FloatOps.mulf R3 ea)
    (FloatOps.mulf R4 eb) (FloatOps.mulf R5 ed) (FloatOps.mulf R6 ea) (FloatOps.mulf R7 eb)
    (FloatOps.mulf (FloatOps.subf P (FloatOps.mulf (FloatOps.mulf T Y) Y)) ed))

/-- The specification's entries are those of the scaled rotation of the normalised quaternion. -/
theorem covK_eq (w x y z a b d : F .f32) (c : Fin 9) :
    Cert.Spec.covK w x y z a b d c
      = covOf (rsOf (FloatOps.mulf w (Cert.Spec.invNorm w x y z)) (FloatOps.mulf x (Cert.Spec.invNorm w x y z))
          (FloatOps.mulf y (Cert.Spec.invNorm w x y z)) (FloatOps.mulf z (Cert.Spec.invNorm w x y z))
          (FloatOps.exp a) (FloatOps.exp b) (FloatOps.exp d)) c := by
  fin_cases c <;> rfl

end Scalars

/-! ## The normalised quaternion -/

/-- The reciprocal norm of quaternion l of row r. -/
theorem pay8_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay8 v0 (ix2 r l) = (Cert.Spec.invNorm (v0 (ix2 r q0)) (v0 (ix2 r q1)) (v0 (ix2 r q2)) (v0 (ix2 r q3))) := by
  rw [← pay4_apply v0 r l q0 h0, ← pay5_apply v0 r l q1 h1, ← pay6_apply v0 r l q2 h2, ← pay7_apply v0 r l q3 h3]
  rfl

/-- Word 0 of the normalised quaternion. -/
theorem pay9_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay9 v0 (ix2 r l) = FloatOps.mulf (v0 (ix2 r q0)) (Cert.Spec.invNorm (v0 (ix2 r q0)) (v0 (ix2 r q1)) (v0 (ix2 r q2)) (v0 (ix2 r q3))) := by
  rw [← pay8_apply v0 r l q0 q1 q2 q3 h0 h1 h2 h3, ← pay4_apply v0 r l q0 h0]
  rfl

/-- Word 1 of the normalised quaternion. -/
theorem pay10_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay10 v0 (ix2 r l) = FloatOps.mulf (v0 (ix2 r q1)) (Cert.Spec.invNorm (v0 (ix2 r q0)) (v0 (ix2 r q1)) (v0 (ix2 r q2)) (v0 (ix2 r q3))) := by
  rw [← pay8_apply v0 r l q0 q1 q2 q3 h0 h1 h2 h3, ← pay5_apply v0 r l q1 h1]
  rfl

/-- Word 2 of the normalised quaternion. -/
theorem pay11_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay11 v0 (ix2 r l) = FloatOps.mulf (v0 (ix2 r q2)) (Cert.Spec.invNorm (v0 (ix2 r q0)) (v0 (ix2 r q1)) (v0 (ix2 r q2)) (v0 (ix2 r q3))) := by
  rw [← pay8_apply v0 r l q0 q1 q2 q3 h0 h1 h2 h3, ← pay6_apply v0 r l q2 h2]
  rfl

/-- Word 3 of the normalised quaternion. -/
theorem pay12_apply (v0 : Vec F S632x512 .f32) (r : Fin 632) (l : Fin 128) (q0 q1 q2 q3 : Fin 512) (h0 : q0.val = l.val * 4) (h1 : q1.val = l.val * 4 + 1) (h2 : q2.val = l.val * 4 + 2) (h3 : q3.val = l.val * 4 + 3) :
    k0_pay12 v0 (ix2 r l) = FloatOps.mulf (v0 (ix2 r q3)) (Cert.Spec.invNorm (v0 (ix2 r q0)) (v0 (ix2 r q1)) (v0 (ix2 r q2)) (v0 (ix2 r q3))) := by
  rw [← pay8_apply v0 r l q0 q1 q2 q3 h0 h1 h2 h3, ← pay7_apply v0 r l q3 h3]
  rfl

/-! ## The rotation entries and the products -/

/-- The values the last part of the body is given are the rotation entries of the normalised quaternion: its result is
    the scaled rotation times its transpose. -/
theorem tail_rot (v0 : Vec F S632x512 .f32) (i : S632x128.Idx) (ea eb ed : F .f32) (c : Fin 9) :
    tail ea eb ed (k0_pay11 v0 i) (k0_pay13 v0 i) (k0_pay14 v0 i)
        (k0_pay17 (k0_pay9 v0) (k0_pay11 v0) (k0_pay15 v0) k0_pay16 i)
        (k0_pay18 (k0_pay9 v0) (k0_pay10 v0) (k0_pay11 v0) (k0_pay12 v0) i)
        (k0_pay19 (k0_pay10 v0) (k0_pay12 v0) i)
        (k0_pay20 (k0_pay9 v0) (k0_pay10 v0) (k0_pay11 v0) (k0_pay12 v0) i)
        (k0_pay21 (k0_pay9 v0) (k0_pay10 v0) (k0_pay11 v0) (k0_pay12 v0) i)
        (k0_pay22 (k0_pay9 v0) (k0_pay10 v0) (k0_pay11 v0) (k0_pay12 v0) i)
        (k0_pay23 (k0_pay10 v0) i) (k0_pay24 i) c
      = covOf (rsOf (k0_pay9 v0 i) (k0_pay10 v0 i) (k0_pay11 v0 i) (k0_pay12 v0 i) ea eb ed) c := by
  fin_cases c <;> rfl

/-- The last part of the body at gaussian l of row r, entry c: the exponentials of the three log-scales, and the
    products of the scaled rows. -/
theorem pay25_apply (v7 : FVec F S632x3x128 .f32)
    (v26 v36 v43 v50 v57 v66 v73 v80 v87 v92 v93 : FVec F S632x128 .f32) (r : Fin 632) (l : Fin 128) (c : Fin 9) :
    k0_pay25 v7 v26 v36 v43 v50 v57 v66 v73 v80 v87 v92 v93 (ix3 r l c)
      = tail (FloatOps.exp (v7 (ix3 r (0 : Fin 3) l))) (FloatOps.exp (v7 (ix3 r (1 : Fin 3) l)))
          (FloatOps.exp (v7 (ix3 r (2 : Fin 3) l)))
          (v26 (ix2 r l)) (v36 (ix2 r l)) (v43 (ix2 r l)) (v50 (ix2 r l)) (v57 (ix2 r l)) (v66 (ix2 r l))
          (v73 (ix2 r l)) (v80 (ix2 r l)) (v87 (ix2 r l)) (v92 (ix2 r l)) (v93 (ix2 r l)) c := by
  have e0 : shapeCast S632x128 (extractStridedSlice S632x1x128 ![0, 0, 0] (exp v7) slices_S632x3x128_o0_0_0_S632x1x128)
      shapeCasts_S632x1x128_S632x128 (ix2 r l) = FloatOps.exp (v7 (ix3 r (0 : Fin 3) l)) := by
    rw [dropMid_apply, sliceMid_apply 0 _ _ r 0 l (0 : Fin 3) rfl]; rfl
  have e1 : shapeCast S632x128 (extractStridedSlice S632x1x128 ![0, 1, 0] (exp v7) slices_S632x3x128_o0_1_0_S632x1x128)
      shapeCasts_S632x1x128_S632x128 (ix2 r l) = FloatOps.exp (v7 (ix3 r (1 : Fin 3) l)) := by
    rw [dropMid_apply, sliceMid_apply 1 _ _ r 0 l (1 : Fin 3) rfl]; rfl
  have e2 : shapeCast S632x128 (extractStridedSlice S632x1x128 ![0, 2, 0] (exp v7) slices_S632x3x128_o0_2_0_S632x1x128)
      shapeCasts_S632x1x128_S632x128 (ix2 r l) = FloatOps.exp (v7 (ix3 r (2 : Fin 3) l)) := by
    rw [dropMid_apply, sliceMid_apply 2 _ _ r 0 l (2 : Fin 3) rfl]; rfl
  rw [← e0, ← e1, ← e2]
  unfold k0_pay25
  rw [transpose_ix3_021_apply, stack9_apply]
  fin_cases c <;> rfl

/-! ## The stored block -/

/-- The stored block at column l · 9 + c of row r is entry c of the covariance of gaussian l of that row, computed from
    the four quaternion words at columns l · 4 … l · 4 + 3 of the first block and the three log-scales at columns
    l · 3 … l · 3 + 2 of the second. -/
theorem stored_apply (v0 : Vec F S632x512 .f32) (v2 : Vec F S632x384 .f32) (r : Fin 632) (l : Fin 128) (c : Fin 9)
    (q : Fin 1152) (hq : q.val = l.val * 9 + c.val)
    (q0 q1 q2 q3 : Fin 512) (h0 : q0.val = l.val * 4) (h1 : q1.val = l.val * 4 + 1) (h2 : q2.val = l.val * 4 + 2) (h3 : q3.val = l.val * 4 + 3)
    (p0 p1 p2 : Fin 384) (g0 : p0.val = l.val * 3) (g1 : p1.val = l.val * 3 + 1) (g2 : p2.val = l.val * 3 + 2) :
    stored v0 v2 (ix2 r q)
      = Cert.Spec.covK (v0 (ix2 r q0)) (v0 (ix2 r q1)) (v0 (ix2 r q2)) (v0 (ix2 r q3)) (v2 (ix2 r p0)) (v2 (ix2 r p1)) (v2 (ix2 r p2)) c := by
  unfold stored k0_pay1
  rw [Cert.Lib.GroupedLanes.merge_apply _ _ (by norm_num) r q l c hq, pay25_apply,
    pay3_apply v2 r 0 l p0 (by show p0.val = l.val * 3 + 0; omega),
    pay3_apply v2 r 1 l p1 (by show p1.val = l.val * 3 + 1; omega),
    pay3_apply v2 r 2 l p2 (by show p2.val = l.val * 3 + 2; omega),
    tail_rot, pay9_apply v0 r l q0 q1 q2 q3 h0 h1 h2 h3, pay10_apply v0 r l q0 q1 q2 q3 h0 h1 h2 h3,
    pay11_apply v0 r l q0 q1 q2 q3 h0 h1 h2 h3, pay12_apply v0 r l q0 q1 q2 q3 h0 h1 h2 h3]
  exact (covK_eq _ _ _ _ _ _ _ c).symm

end Cert.KI
-- ==== Proof.RowsI.lean ====
/-
  Each row of the block the body stores is computed from the same row of the two blocks it loads.

  An entry of the stored block at row r, column 9 l + c is a function of seven words: columns 4 l … 4 l + 3 of row r of
  the first block and 3 l … 3 l + 2 of row r of the second. The transfers of a grid point move the same leading rows
  of all three windows and every column, so two pairs of blocks that agree on the moved rows give stored blocks that
  agree on the moved rows.
-/
import proofs.«158826_j11218454577222_2_alg».proof.Proof.BodyI
import proofs.«158826_j11218454577222_2_alg».proof.Proof.PayIdxI
import Idealize.ShloMosaic.Lib.ValueIdx

noncomputable section

namespace Cert.KI

open Cert.KernelIdeal Cert.KernelIdeal.Gen
open Idealize.ShloMosaic Idealize.ShloMosaic.ValueIdx Idealize.ShloMosaic.TcCoe
open Idealize.SL Idealize.SL.Sem

variable {F : FTy → Type} [FloatOps F]

/-- Contents of a window's block that agree on what a transfer moves agree at every index it moves. -/
theorem eq_of_cut_eq {G : Pipeline.Grid} (w : Pipeline.Window sig G) {α : Type} (i : G.Coords) {X Y : w.block.Idx → α}
    (h : w.cut i X = w.cut i Y) (k : w.block.Idx) (hk : ∀ a, (k a).val < w.xsize i a) : X k = Y k :=
  congrFun h (fun a => ⟨(k a).val, hk a⟩)

/-- At every grid point the two inputs' transfers move as many rows as the result's, and every column. -/
theorem moved_rows : ∀ t : Fin cfg0.N,
    win0_0.xsize (grid0.coords t) 0 = win0_2.xsize (grid0.coords t) 0 ∧ win0_1.xsize (grid0.coords t) 0 = win0_2.xsize (grid0.coords t) 0
    ∧ win0_0.xsize (grid0.coords t) 1 = 512 ∧ win0_1.xsize (grid0.coords t) 1 = 384 :=
  (by decide +kernel : ∀ t : Fin grid0.N, _)

theorem rowLocal : RowLocal F := by
  intro t A A' B B' hA hB
  obtain ⟨e0, e1, e2, e3⟩ := moved_rows t
  funext j
  show stored A B (win0_2.xinj (grid0.coords t) j) = stored A' B' (win0_2.xinj (grid0.coords t) j)
  have hr : (j 0).val < win0_2.xsize (grid0.coords t) 0 := (j 0).isLt
  have hr632 : (j 0).val < 632 := lt_of_lt_of_le hr (win0_2.xsize_le (grid0.coords t) 0)
  have hq1152 : (j 1).val < 1152 := lt_of_lt_of_le (j 1).isLt (win0_2.xsize_le (grid0.coords t) 1)
  have hidx : win0_2.xinj (grid0.coords t) j = ix2 (⟨(j 0).val, hr632⟩ : Fin 632) (⟨(j 1).val, hq1152⟩ : Fin 1152) := by
    funext a; match a with
    | ⟨0, _⟩ => rfl
    | ⟨1, _⟩ => rfl
  rw [hidx]
  have a0 : ∀ q0 : Fin 512, A (ix2 (⟨(j 0).val, hr632⟩ : Fin 632) q0) = A' (ix2 (⟨(j 0).val, hr632⟩ : Fin 632) q0) := fun q0 =>
    eq_of_cut_eq win0_0 (grid0.coords t) hA (ix2 (⟨(j 0).val, hr632⟩ : Fin 632) q0) (fun a => by
      match a with
      | ⟨0, _⟩ => show (j 0).val < win0_0.xsize (grid0.coords t) 0; rw [e0]; exact hr
      | ⟨1, _⟩ => show q0.val < win0_0.xsize (grid0.coords t) 1; rw [e2]; exact q0.isLt)
  have b0 : ∀ p0 : Fin 384, B (ix2 (⟨(j 0).val, hr632⟩ : Fin 632) p0) = B' (ix2 (⟨(j 0).val, hr632⟩ : Fin 632) p0) := fun p0 =>
    eq_of_cut_eq win0_1 (grid0.coords t) hB (ix2 (⟨(j 0).val, hr632⟩ : Fin 632) p0) (fun a => by
      match a with
      | ⟨0, _⟩ => show (j 0).val < win0_1.xsize (grid0.coords t) 0; rw [e1]; exact hr
      | ⟨1, _⟩ => show p0.val < win0_1.xsize (grid0.coords t) 1; rw [e3]; exact p0.isLt)
  have hl : (j 1).val / 9 < 128 := by omega
  have hc : (j 1).val % 9 < 9 := Nat.mod_lt _ (by norm_num)
  rw [stored_apply A B ⟨(j 0).val, hr632⟩ ⟨(j 1).val / 9, hl⟩ ⟨(j 1).val % 9, hc⟩ ⟨(j 1).val, hq1152⟩ (by show (j 1).val = (j 1).val / 9 * 9 + (j 1).val % 9; omega)
      ⟨(j 1).val / 9 * 4, by omega⟩ ⟨(j 1).val / 9 * 4 + 1, by omega⟩ ⟨(j 1).val / 9 * 4 + 2, by omega⟩ ⟨(j 1).val / 9 * 4 + 3, by omega⟩ rfl rfl rfl rfl
      ⟨(j 1).val / 9 * 3, by omega⟩ ⟨(j 1).val / 9 * 3 + 1, by omega⟩ ⟨(j 1).val / 9 * 3 + 2, by omega⟩ rfl rfl rfl,
    stored_apply A' B' ⟨(j 0).val, hr632⟩ ⟨(j 1).val / 9, hl⟩ ⟨(j 1).val % 9, hc⟩ ⟨(j 1).val, hq1152⟩ (by show (j 1).val = (j 1).val / 9 * 9 + (j 1).val % 9; omega)
      ⟨(j 1).val / 9 * 4, by omega⟩ ⟨(j 1).val / 9 * 4 + 1, by omega⟩ ⟨(j 1).val / 9 * 4 + 2, by omega⟩ ⟨(j 1).val / 9 * 4 + 3, by omega⟩ rfl rfl rfl rfl
      ⟨(j 1).val / 9 * 3, by omega⟩ ⟨(j 1).val / 9 * 3 + 1, by omega⟩ ⟨(j 1).val / 9 * 3 + 2, by omega⟩ rfl rfl rfl,
    a0, a0, a0, a0, b0, b0, b0]

end Cert.KI

end
-- ==== Proof.HostI.lean ====
/-
  The host lines around the region, read as functions of the arrays.

  @main reshapes the quaternions [4000000, 4] to [31250, 512] and the log-scales [4000000, 3] to [31250, 384] before
  the region, and reshapes the region's result [31250, 1152] to [4000000, 9] and then to [4000000, 3, 3] after it.
  A reshape keeps the words in row-major order. So the two arrays the region finds are the shape casts of the argument
  arrays as launched (no other line writes them), and the buffer @main returns is the double shape cast of the array
  the region leaves in its result window (the lines after the region read that array and write only their own results).
-/
import proofs.«158826_j11218454577222_2_alg».proof.Proof.BodyI
import Idealize.ShloMosaic.Lib.StableHlo.Run
import Idealize.ShloMosaic.Lib.Pipeline.FrameSuffix

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- Before the region the quaternions' array is read as 31250 rows of 512 words: the same words in row-major order. -/
theorem V_main_v0 (c : Dev nD) :
    (V m c main_v0 : S31250x512.Idx → Elt F .f32) = shapeCast S31250x512 (m ((c : Thread nD τ).loc main_arg0)) shapeCasts_S4000000x4_S31250x512 := by
  show StableHlo.after hostOps0 (fun b => m (c, b)) (Proc.devRef .tc main_v0) = _
  after_results
  rfl

/-- Before the region the log-scales' array is read as 31250 rows of 384 words: the same words in row-major order. -/
theorem V_main_v1 (c : Dev nD) :
    (V m c main_v1 : S31250x384.Idx → Elt F .f32) = shapeCast S31250x384 (m ((c : Thread nD τ).loc main_arg1)) shapeCasts_S4000000x3_S31250x384 := by
  show StableHlo.after hostOps0 (fun b => m (c, b)) (Proc.devRef .tc main_v1) = _
  after_results
  rfl

/-- After the region, for any proof data of the pipeline: the result buffer holds the region's result array (the array
    of window 2 once all the points' write-backs are done) read as 4000000 rows of 9 words and then as 4000000
    matrices of 3 × 3 — two reshapes, each keeping the words in row-major order. -/
theorem tail_of_dats (dats : (p : Fin 1) → (c : Dev nD) → Dat τ (Elt F) Unit ℕ (UR sig nD τ) ℕ (cfgs p) c) (c : Dev nD) :
    (Pipeline.afterTail₀ cfgs dats 0 (V0 m) [hostOps1] c main_v4 : S4000000x3x3.Idx → Elt F .f32)
      = shapeCast S4000000x3x3 (shapeCast S4000000x9 ((dats 0 c).arrAt 2 cfg0.N) shapeCasts_S31250x1152_S4000000x9) shapeCasts_S4000000x9_S4000000x3x3 := by
  unfold Pipeline.afterTail₀
  show StableHlo.after hostOps1 _ (Proc.devRef .tc main_v4) = _
  after_results
  have e : Pipeline.withArrays (cfgs 0).spec c (V0 m c) (fun w => (dats 0 c).arrAt w (cfgs 0).N) (Proc.devRef .tc main_v2)
      = (dats 0 c).arrAt 2 cfg0.N :=
    Pipeline.withArrays_arr spec0 launch0.win.arr_inj c _ _ 2
  rw [e]
  rfl

/-- The same at the proof data of the frame run. -/
theorem tail_main_v4 (c : Dev nD) :
    (Pipeline.afterTail₀ cfgs (dats (F := F) m) 0 (V0 m) [hostOps1] c main_v4 : S4000000x3x3.Idx → Elt F .f32)
      = shapeCast S4000000x3x3 (shapeCast S4000000x9 ((dats (F := F) m 0 c).arrAt 2 cfg0.N) shapeCasts_S31250x1152_S4000000x9) shapeCasts_S4000000x9_S4000000x3x3 :=
  tail_of_dats m (dats (F := F) m) c

end Cert.KI

end
-- ==== Proof.WholeArray.lean ====
/-
  From one gaussian to the whole array: the layout arithmetic around the per-gaussian formula.

  The quaternions, a [4000000, 4] array, are read as [31250, 512]: row R holds the 128 gaussians n = 128 · R + l,
  l < 128, and word k of gaussian l sits at column 4 · l + k. The log-scales, [4000000, 3], are read as [31250, 384]
  in the same way, word k of gaussian l at column 3 · l + k. The block function produces a [31250, 1152] array whose
  entry (R, 9 · l + c) is entry c of the covariance of gaussian 128 · R + l. That array is read as [4000000, 9] and then
  as [4000000, 3, 3]. All four casts keep the row-major position, so:
  • position n · 4 + k of the quaternions is R · 512 + (4 · l + k) with R = n / 128 and l = n % 128, since
    4 · (128 · R + l) + k = 512 · R + 4 · l + k; likewise with 3 and 384;
  • position (n · 3 + i) · 3 + j of the result is n · 9 + (3 · i + j) = R · 1152 + (9 · l + (3 · i + j)), and
    (9 · l + c) / 9 = l, (9 · l + c) % 9 = c for c < 9.
  Hence entry (n, i, j) of the result is entry 3 · i + j of the covariance of gaussian n's own seven words.
-/
import proofs.«158826_j11218454577222_2_alg».proof.Proof.Spec
import Idealize.ShloMosaic.Lib.Pipeline.Value
import Idealize.ShloMosaic.Lib.ValueIdx

noncomputable section

namespace Cert.WholeArray

open Idealize.ShloMosaic Idealize.ShloMosaic.ValueIdx

variable {F : FTy → Type} [FloatOps F]

/-- The pallas_call's result as one function of its two operands. -/
def blockFn (a0 : (⟨2, ![31250, 512]⟩ : Shape).Idx → F .f32) (a1 : (⟨2, ![31250, 384]⟩ : Shape).Idx → F .f32) : (⟨2, ![31250, 1152]⟩ : Shape).Idx → F .f32 :=
  fun j =>
    let l : ℕ := (j 1).val / 9
    have hl : l < 128 := Nat.div_lt_of_lt_mul (idx2_lt1 j)
    Cert.Spec.covK (a0 (ix2 (j 0) ⟨4 * l, by omega⟩)) (a0 (ix2 (j 0) ⟨4 * l + 1, by omega⟩)) (a0 (ix2 (j 0) ⟨4 * l + 2, by omega⟩)) (a0 (ix2 (j 0) ⟨4 * l + 3, by omega⟩))
      (a1 (ix2 (j 0) ⟨3 * l, by omega⟩)) (a1 (ix2 (j 0) ⟨3 * l + 1, by omega⟩)) (a1 (ix2 (j 0) ⟨3 * l + 2, by omega⟩)) ⟨(j 1).val % 9, Nat.mod_lt _ (by norm_num)⟩

/-- The block function at row R and column q = 9 · l + c: the covariance entry c of the seven words of the l-th
    gaussian of the row. -/
theorem blockFn_apply (a0 : (⟨2, ![31250, 512]⟩ : Shape).Idx → F .f32) (a1 : (⟨2, ![31250, 384]⟩ : Shape).Idx → F .f32)
    (R : Fin 31250) (q : Fin 1152) (l : ℕ) (c : Fin 9) (hl : l = q.val / 9) (hc : c.val = q.val % 9)
    (b0 : 4 * l + 3 < 512) (b1 : 3 * l + 2 < 384) :
    blockFn a0 a1 (ix2 R q)
      = Cert.Spec.covK (a0 (ix2 R ⟨4 * l, by omega⟩)) (a0 (ix2 R ⟨4 * l + 1, by omega⟩)) (a0 (ix2 R ⟨4 * l + 2, by omega⟩)) (a0 (ix2 R ⟨4 * l + 3, b0⟩))
          (a1 (ix2 R ⟨3 * l, by omega⟩)) (a1 (ix2 R ⟨3 * l + 1, by omega⟩)) (a1 (ix2 R ⟨3 * l + 2, b1⟩)) c := by
  subst hl
  obtain rfl : c = ⟨q.val % 9, Nat.mod_lt _ (by norm_num)⟩ := Fin.ext hc
  rfl

/-- The quaternions read as [31250, 512]: position R · 512 + q is position n · 4 + k. -/
theorem quat_apply {α : Type} (x0 : (⟨2, ![4000000, 4]⟩ : Shape).Idx → α) (h0 : (⟨2, ![4000000, 4]⟩ : Shape).ShapeCasts ⟨2, ![31250, 512]⟩)
    (R : Fin 31250) (q : Fin 512) (n : Fin 4000000) (k : Fin 4) (h : R.val * 512 + q.val = n.val * 4 + k.val) :
    shapeCast ⟨2, ![31250, 512]⟩ x0 h0 (ix2 R q) = x0 (ix2 n k) :=
  shapeCast_apply x0 h0 _ _ (by
    rw [Shape.rowMajor_val_two, Shape.rowMajor_val_two]
    show n.val * 4 + k.val = R.val * 512 + q.val
    exact h.symm)

/-- The log-scales read as [31250, 384]: position R · 384 + q is position n · 3 + k. -/
theorem scale_apply {α : Type} (x1 : (⟨2, ![4000000, 3]⟩ : Shape).Idx → α) (h1 : (⟨2, ![4000000, 3]⟩ : Shape).ShapeCasts ⟨2, ![31250, 384]⟩)
    (R : Fin 31250) (q : Fin 384) (n : Fin 4000000) (k : Fin 3) (h : R.val * 384 + q.val = n.val * 3 + k.val) :
    shapeCast ⟨2, ![31250, 384]⟩ x1 h1 (ix2 R q) = x1 (ix2 n k) :=
  shapeCast_apply x1 h1 _ _ (by
    rw [Shape.rowMajor_val_two, Shape.rowMajor_val_two]
    show n.val * 3 + k.val = R.val * 384 + q.val
    exact h.symm)

/-- A [31250, 1152] array read as [4000000, 9] and then as [4000000, 3, 3]: position (n · 3 + i) · 3 + j is position
    R · 1152 + q. -/
theorem tail_apply {α : Type} (y : (⟨2, ![31250, 1152]⟩ : Shape).Idx → α)
    (h2 : (⟨2, ![31250, 1152]⟩ : Shape).ShapeCasts ⟨2, ![4000000, 9]⟩) (h3 : (⟨2, ![4000000, 9]⟩ : Shape).ShapeCasts ⟨3, ![4000000, 3, 3]⟩)
    (n : Fin 4000000) (i j : Fin 3) (R : Fin 31250) (q : Fin 1152) (h : R.val * 1152 + q.val = (n.val * 3 + i.val) * 3 + j.val) :
    shapeCast ⟨3, ![4000000, 3, 3]⟩ (shapeCast ⟨2, ![4000000, 9]⟩ y h2) h3 (ix3 n i j) = y (ix2 R q) := by
  have hm : 3 * i.val + j.val < 9 := by omega
  refine (shapeCast_apply (shapeCast ⟨2, ![4000000, 9]⟩ y h2) h3 (ix3 n i j) (ix2 n ⟨3 * i.val + j.val, hm⟩) (by
    rw [Shape.rowMajor_val_two, Shape.rowMajor_val_three]
    show n.val * 9 + (3 * i.val + j.val) = (n.val * 3 + i.val) * 3 + j.val
    omega)).trans ?_
  exact shapeCast_apply y h2 _ _ (by
    rw [Shape.rowMajor_val_two, Shape.rowMajor_val_two]
    show R.val * 1152 + q.val = n.val * 9 + (3 * i.val + j.val)
    omega)

theorem result_apply (x0 : (⟨2, ![4000000, 4]⟩ : Shape).Idx → F .f32) (x1 : (⟨2, ![4000000, 3]⟩ : Shape).Idx → F .f32)
    (h0 : (⟨2, ![4000000, 4]⟩ : Shape).ShapeCasts ⟨2, ![31250, 512]⟩) (h1 : (⟨2, ![4000000, 3]⟩ : Shape).ShapeCasts ⟨2, ![31250, 384]⟩)
    (h2 : (⟨2, ![31250, 1152]⟩ : Shape).ShapeCasts ⟨2, ![4000000, 9]⟩) (h3 : (⟨2, ![4000000, 9]⟩ : Shape).ShapeCasts ⟨3, ![4000000, 3, 3]⟩)
    (n : Fin 4000000) (i j : Fin 3) :
    shapeCast ⟨3, ![4000000, 3, 3]⟩ (shapeCast ⟨2, ![4000000, 9]⟩ (blockFn (shapeCast ⟨2, ![31250, 512]⟩ x0 h0) (shapeCast ⟨2, ![31250, 384]⟩ x1 h1)) h2) h3 (ix3 n i j)
      = Cert.Spec.covK (x0 (ix2 n 0)) (x0 (ix2 n 1)) (x0 (ix2 n 2)) (x0 (ix2 n 3)) (x1 (ix2 n 0)) (x1 (ix2 n 1)) (x1 (ix2 n 2)) ⟨3 * i.val + j.val, by omega⟩ := by
  have hn : n.val < 4000000 := n.isLt
  have hi : i.val < 3 := i.isLt
  have hj : j.val < 3 := j.isLt
  have hR : n.val / 128 < 31250 := by omega
  have hq : n.val % 128 * 9 + (3 * i.val + j.val) < 1152 := by omega
  have hm : 3 * i.val + j.val < 9 := by omega
  refine (tail_apply _ h2 h3 n i j ⟨n.val / 128, hR⟩ ⟨n.val % 128 * 9 + (3 * i.val + j.val), hq⟩ (by
    show n.val / 128 * 1152 + (n.val % 128 * 9 + (3 * i.val + j.val)) = (n.val * 3 + i.val) * 3 + j.val
    omega)).trans ?_
  refine (blockFn_apply _ _ ⟨n.val / 128, hR⟩ ⟨n.val % 128 * 9 + (3 * i.val + j.val), hq⟩ (n.val % 128) ⟨3 * i.val + j.val, hm⟩
    (by show n.val % 128 = (n.val % 128 * 9 + (3 * i.val + j.val)) / 9; omega)
    (by show 3 * i.val + j.val = (n.val % 128 * 9 + (3 * i.val + j.val)) % 9; omega)
    (by omega) (by omega)).trans ?_
  rw [quat_apply x0 h0 ⟨n.val / 128, hR⟩ ⟨4 * (n.val % 128), by omega⟩ n 0 (by show n.val / 128 * 512 + 4 * (n.val % 128) = n.val * 4 + 0; omega),
    quat_apply x0 h0 ⟨n.val / 128, hR⟩ ⟨4 * (n.val % 128) + 1, by omega⟩ n 1 (by show n.val / 128 * 512 + (4 * (n.val % 128) + 1) = n.val * 4 + 1; omega),
    quat_apply x0 h0 ⟨n.val / 128, hR⟩ ⟨4 * (n.val % 128) + 2, by omega⟩ n 2 (by show n.val / 128 * 512 + (4 * (n.val % 128) + 2) = n.val * 4 + 2; omega),
    quat_apply x0 h0 ⟨n.val / 128, hR⟩ ⟨4 * (n.val % 128) + 3, by omega⟩ n 3 (by show n.val / 128 * 512 + (4 * (n.val % 128) + 3) = n.val * 4 + 3; omega),
    scale_apply x1 h1 ⟨n.val / 128, hR⟩ ⟨3 * (n.val % 128), by omega⟩ n 0 (by show n.val / 128 * 384 + 3 * (n.val % 128) = n.val * 3 + 0; omega),
    scale_apply x1 h1 ⟨n.val / 128, hR⟩ ⟨3 * (n.val % 128) + 1, by omega⟩ n 1 (by show n.val / 128 * 384 + (3 * (n.val % 128) + 1) = n.val * 3 + 1; omega),
    scale_apply x1 h1 ⟨n.val / 128, hR⟩ ⟨3 * (n.val % 128) + 2, by omega⟩ n 2 (by show n.val / 128 * 384 + (3 * (n.val % 128) + 2) = n.val * 3 + 2; omega)]

end Cert.WholeArray

end
-- ==== Proof.FinalI.lean ====
/-
  From the blocks to the array: what the pallas_call's result array holds after the run.

  The call walks fifty grid points; point t moves rows 632 t … 632 t + 631 of the two operand arrays (31250 rows of
  512 and of 384 columns) and of the result array (31250 rows of 1152 columns) through staging buffers of 632 rows.
  632 · 50 = 31600 > 31250, so the last block is cut at the arrays' end to its 282 rows inside them. At every point
  the body leaves in the result's buffer the block stored from the two input buffers; on a row the transfers move, an
  input buffer holds the array's row 632 t further down, and a stored entry at column 9 l + c is entry c of the
  covariance of the seven words at columns 4 l … 4 l + 3 and 3 l … 3 l + 2 of the same row. So what point t writes back
  is its block of ONE function of the two operand arrays, the block function; the fifty cut blocks cover the result
  array (row R lies in block R / 632, every block spans all columns); hence the array ends holding the block function
  of the operands. The rows of the last buffer past the arrays' end are never read back and play no part.
-/
import proofs.«158826_j11218454577222_2_alg».proof.Proof.BodyI
import proofs.«158826_j11218454577222_2_alg».proof.Proof.PayIdxI
import proofs.«158826_j11218454577222_2_alg».proof.Proof.WholeArray
import Idealize.ShloMosaic.Lib.Pipeline.Value
import Idealize.ShloMosaic.Lib.ValueIdx

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

open Idealize.ShloMosaic.ValueIdx

/-! ## From the blocks to the array -/

/-- The printed index maps and the clipping, decided once over the fifty grid points: block t of each window starts at
    row 632 t and column 0; every block spans its array's columns; the three windows move the same number of rows,
    632 of them except at the last point, whose block ends with the array. -/
theorem grid_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_0.xsize (grid0.coords t) (1 : Fin 2) = 512 ∧ win0_1.xsize (grid0.coords t) (1 : Fin 2) = 384
  ∧ win0_2.xsize (grid0.coords t) (1 : Fin 2) = 1152
  ∧ win0_0.xsize (grid0.coords t) (0 : Fin 2) = win0_2.xsize (grid0.coords t) (0 : Fin 2)
  ∧ win0_1.xsize (grid0.coords t) (0 : Fin 2) = win0_2.xsize (grid0.coords t) (0 : Fin 2)
  ∧ t.val * 632 + win0_2.xsize (grid0.coords t) (0 : Fin 2) = min (t.val * 632 + 632) 31250 :=
  (by decide +kernel : ∀ t : Fin grid0.N, _)

/-- A row inside a point's clipped block is a row of the block and, moved to the block's place, a row of the array. -/
theorem row_bounds (t : Fin cfg0.N) (R : ℕ) (hR : R < win0_2.xsize (grid0.coords t) (0 : Fin 2)) :
    R < 632 ∧ t.val * 632 + R < 31250 := by
  obtain ⟨-, -, -, -, -, -, -, -, -, -, -, hc⟩ := grid_facts t
  omega

/-- The first input's buffer at point t, at a row the transfer moves: the array's entry 632 t rows further down. -/
theorem in0_apply (c : Dev nD) (t : Fin cfg0.N) (R Q : ℕ) (hR : R < win0_2.xsize (grid0.coords t) (0 : Fin 2)) (hQ : Q < 512) :
    in0 m c t (ix2 ⟨R, (row_bounds t R hR).1⟩ ⟨Q, hQ⟩)
      = V m c main_v0 (ix2 ⟨t.val * 632 + R, (row_bounds t R hR).2⟩ ⟨Q, hQ⟩) := by
  obtain ⟨e00, e01, -, -, -, -, x01, -, -, x00, -, -⟩ := grid_facts t
  have hmv : win0_0.moved (grid0.coords t) (ix2 (⟨R, (row_bounds t R hR).1⟩ : Fin 632) (⟨Q, hQ⟩ : Fin 512)) = true :=
    (win0_0.moved_iff _ _).mpr fun a => by
      match a with
      | ⟨0, _⟩ => show R < win0_0.xsize (grid0.coords t) (0 : Fin 2); rw [x00]; exact hR
      | ⟨1, _⟩ => show Q < win0_0.xsize (grid0.coords t) (1 : Fin 2); rw [x01]; exact hQ
  unfold in0 Window.fill
  rw [dif_pos hmv]
  show V m c main_v0 (((cfg0.win 0).blk t).view.emb _) = _
  refine congrArg (V m c main_v0) (funext fun a => Fin.ext ?_)
  match a with
  | ⟨0, _⟩ => show win0_0.index t (0 : Fin 2) * 632 + 1 * R = t.val * 632 + R; rw [e00]; omega
  | ⟨1, _⟩ => show win0_0.index t (1 : Fin 2) * 512 + 1 * Q = Q; rw [e01]; omega

/-- The second input's buffer likewise. -/
theorem in1_apply (c : Dev nD) (t : Fin cfg0.N) (R Q : ℕ) (hR : R < win0_2.xsize (grid0.coords t) (0 : Fin 2)) (hQ : Q < 384) :
    in1 m c t (ix2 ⟨R, (row_bounds t R hR).1⟩ ⟨Q, hQ⟩)
      = V m c main_v1 (ix2 ⟨t.val * 632 + R, (row_bounds t R hR).2⟩ ⟨Q, hQ⟩) := by
  obtain ⟨-, -, e10, e11, -, -, -, x11, -, -, x10, -⟩ := grid_facts t
  have hmv : win0_1.moved (grid0.coords t) (ix2 (⟨R, (row_bounds t R hR).1⟩ : Fin 632) (⟨Q, hQ⟩ : Fin 384)) = true :=
    (win0_1.moved_iff _ _).mpr fun a => by
      match a with
      | ⟨0, _⟩ => show R < win0_1.xsize (grid0.coords t) (0 : Fin 2); rw [x10]; exact hR
      | ⟨1, _⟩ => show Q < win0_1.xsize (grid0.coords t) (1 : Fin 2); rw [x11]; exact hQ
  unfold in1 Window.fill
  rw [dif_pos hmv]
  show V m c main_v1 (((cfg0.win 1).blk t).view.emb _) = _
  refine congrArg (V m c main_v1) (funext fun a => Fin.ext ?_)
  match a with
  | ⟨0, _⟩ => show win0_1.index t (0 : Fin 2) * 632 + 1 * R = t.val * 632 + R; rw [e10]; omega
  | ⟨1, _⟩ => show win0_1.index t (1 : Fin 2) * 384 + 1 * Q = Q; rw [e11]; omega

/-- The result's buffer at point t, at a row the write-back moves: the block function of the two arrays at that row of
    the array. Column Q = 9 l + c holds entry c of the covariance of the row's l-th gaussian, whose seven words sit at
    columns 4 l … 4 l + 3 and 3 l … 3 l + 2 of the same row of the two inputs. -/
theorem out2_apply (c : Dev nD) (t : Fin cfg0.N) (R Q : ℕ) (hR : R < win0_2.xsize (grid0.coords t) (0 : Fin 2)) (hQ : Q < 1152) :
    out2 m c t (ix2 ⟨R, (row_bounds t R hR).1⟩ ⟨Q, hQ⟩)
      = Cert.WholeArray.blockFn (V m c main_v0) (V m c main_v1) (ix2 ⟨t.val * 632 + R, (row_bounds t R hR).2⟩ ⟨Q, hQ⟩) := by
  have hl : Q / 9 < 128 := by omega
  unfold out2
  rw [stored_apply (in0 m c t) (in1 m c t) ⟨R, (row_bounds t R hR).1⟩ ⟨Q / 9, hl⟩ ⟨Q % 9, Nat.mod_lt _ (by norm_num)⟩ ⟨Q, hQ⟩
      (by show Q = Q / 9 * 9 + Q % 9; omega)
      ⟨4 * (Q / 9), by omega⟩ ⟨4 * (Q / 9) + 1, by omega⟩ ⟨4 * (Q / 9) + 2, by omega⟩ ⟨4 * (Q / 9) + 3, by omega⟩
      (by show 4 * (Q / 9) = Q / 9 * 4; omega) (by show 4 * (Q / 9) + 1 = Q / 9 * 4 + 1; omega)
      (by show 4 * (Q / 9) + 2 = Q / 9 * 4 + 2; omega) (by show 4 * (Q / 9) + 3 = Q / 9 * 4 + 3; omega)
      ⟨3 * (Q / 9), by omega⟩ ⟨3 * (Q / 9) + 1, by omega⟩ ⟨3 * (Q / 9) + 2, by omega⟩
      (by show 3 * (Q / 9) = Q / 9 * 3; omega) (by show 3 * (Q / 9) + 1 = Q / 9 * 3 + 1; omega)
      (by show 3 * (Q / 9) + 2 = Q / 9 * 3 + 2; omega),
    in0_apply m c t R (4 * (Q / 9)) hR (by omega), in0_apply m c t R (4 * (Q / 9) + 1) hR (by omega),
    in0_apply m c t R (4 * (Q / 9) + 2) hR (by omega), in0_apply m c t R (4 * (Q / 9) + 3) hR (by omega),
    in1_apply m c t R (3 * (Q / 9)) hR (by omega), in1_apply m c t R (3 * (Q / 9) + 1) hR (by omega),
    in1_apply m c t R (3 * (Q / 9) + 2) hR (by omega)]
  exact (Cert.WholeArray.blockFn_apply (V m c main_v0) (V m c main_v1) ⟨t.val * 632 + R, (row_bounds t R hR).2⟩ ⟨Q, hQ⟩ (Q / 9)
    ⟨Q % 9, Nat.mod_lt _ (by norm_num)⟩ rfl rfl (by omega) (by omega)).symm

/-- WHAT POINT t WRITES BACK: the rows of its block inside the array, of the block function of the two arrays as the
    region finds them. -/
theorem flushed_eq (c : Dev nD) (t : Fin cfg0.N) :
    (dats (F := F) m 0 c).flushed 2 t
      = ((cfg0.win 2).blk t).view.read (Elt F) (Cert.WholeArray.blockFn (V m c main_v0) (V m c main_v1)) := by
  show (cfg0.win 2).cut (grid0.coords t) ((dats m 0 c).after 2 t) = _
  rw [after2]
  funext j
  obtain ⟨-, -, -, -, e20, e21, -, -, x21, -, -, -⟩ := grid_facts t
  have hR : (j 0).val < win0_2.xsize (grid0.coords t) (0 : Fin 2) := (j 0).isLt
  have hQ : (j 1).val < 1152 := by
    have h := (j 1).isLt
    change (j 1).val < win0_2.xsize (grid0.coords t) (1 : Fin 2) at h
    rw [x21] at h; exact h
  have hl : win0_2.xinj (grid0.coords t) j = ix2 ⟨(j 0).val, (row_bounds t _ hR).1⟩ ⟨(j 1).val, hQ⟩ :=
    funext fun a => by match a with | ⟨0, _⟩ => rfl | ⟨1, _⟩ => rfl
  have hr : ((cfg0.win 2).blk t).view.emb j = ix2 ⟨t.val * 632 + (j 0).val, (row_bounds t _ hR).2⟩ ⟨(j 1).val, hQ⟩ :=
    funext fun a => Fin.ext (by
      match a with
      | ⟨0, _⟩ => show win0_2.index t (0 : Fin 2) * 632 + 1 * (j 0).val = t.val * 632 + (j 0).val; rw [e20]; omega
      | ⟨1, _⟩ => show win0_2.index t (1 : Fin 2) * 1152 + 1 * (j 1).val = (j 1).val; rw [e21]; omega)
  show out2 m c t (win0_2.xinj (grid0.coords t) j)
    = Cert.WholeArray.blockFn (V m c main_v0) (V m c main_v1) (((cfg0.win 2).blk t).view.emb j)
  rw [hl, hr]
  exact out2_apply m c t _ _ hR hQ

/-- An index of the result array is in point t's block iff each coordinate is in the block's range cut at the array's
    end. -/
theorem mem_blk (t : Fin cfg0.N) (i : S31250x1152.Idx) :
    i ∈ ((cfg0.win 2).blk t).view.set ↔ ∀ a : Fin 2, win0_2.index t a * S632x1152.size a ≤ (i a).val
      ∧ (i a).val < win0_2.index t a * S632x1152.size a + win0_2.xsize (grid0.coords t) a := by
  show i ∈ ((View.whole main_v2).slice (win0_2.rect t)).set ↔ _
  rw [View.set_slice_whole, Rect.mem_set_unit]
  exact Iff.rfl

/-- Every index of the result array is in the block of the point its row falls to: row R is in block R / 632 — the
    fifty blocks' rows 632 t … min (632 t + 631) 31249 are all the rows — and every block spans the 1152 columns. -/
theorem cover (i : S31250x1152.Idx) :
    ∃ t : Fin cfg0.N, (cfg0.win 2).flush t = true ∧ i ∈ ((cfg0.win 2).blk t).view.set := by
  have h0 : (i 0).val < 31250 := (i 0).isLt
  have h1 : (i 1).val < 1152 := (i 1).isLt
  obtain ⟨t, ht⟩ : ∃ t : Fin cfg0.N, t.val = (i 0).val / 632 :=
    ⟨⟨(i 0).val / 632, by have := N_0; show _ < grid0.N; omega⟩, rfl⟩
  refine ⟨t, flush0_2 t, ?_⟩
  rw [mem_blk]
  obtain ⟨-, -, -, -, e20, e21, -, -, x21, -, -, hc⟩ := grid_facts t
  intro a
  match a with
  | ⟨0, _⟩ =>
    show win0_2.index t (0 : Fin 2) * 632 ≤ (i 0).val ∧ (i 0).val < win0_2.index t (0 : Fin 2) * 632 + win0_2.xsize (grid0.coords t) (0 : Fin 2)
    rw [e20]; omega
  | ⟨1, _⟩ =>
    show win0_2.index t (1 : Fin 2) * 1152 ≤ (i 1).val ∧ (i 1).val < win0_2.index t (1 : Fin 2) * 1152 + win0_2.xsize (grid0.coords t) (1 : Fin 2)
    rw [e21, x21]; omega

/-- THE RESULT ARRAY after the run: the block function of the two operand arrays as the region finds them. -/
theorem final2 (c : Dev nD) : (dats (F := F) m 0 c).arrAt 2 cfg0.N = Cert.WholeArray.blockFn (V m c main_v0) (V m c main_v1) :=
  (dats m 0 c).arrAt_eq_of_cover 2 _ (fun t _ => flushed_eq m c t) cover

end Cert.KI

end
-- ==== Proof.KernelRunI.lean ====
/-
  The idealized kernel program's run, with its result NAMED.

  @main reshapes the two arguments, runs the pallas_call, and reshapes its result twice. The frame run leaves the
  pallas_call's result array at the write-backs of the staging buffers; those make the array one function of the two
  reshaped operands (each stored row computed from the same row of the operands, the fifty row-blocks covering the array),
  and the reshapes before and after the call are read off the run. So the result buffer ends at `resultFn` of the two
  arguments, which are left as they were.
-/
import proofs.«158826_j11218454577222_2_alg».proof.Proof.BodyI
import proofs.«158826_j11218454577222_2_alg».proof.Proof.RowsI
import proofs.«158826_j11218454577222_2_alg».proof.Proof.HostI
import proofs.«158826_j11218454577222_2_alg».proof.Proof.FinalI
import proofs.«158826_j11218454577222_2_alg».proof.Proof.WholeArray

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The program's result as one function of its two arguments: the pallas_call's whole-array function between the
    host reshapes. -/
def resultFn (x0 : S4000000x4.Idx → Elt F .f32) (x1 : S4000000x3.Idx → Elt F .f32) : S4000000x3x3.Idx → Elt F .f32 :=
  shapeCast S4000000x3x3 (shapeCast S4000000x9
    (Cert.WholeArray.blockFn (shapeCast S31250x512 x0 shapeCasts_S4000000x4_S31250x512) (shapeCast S31250x384 x1 shapeCasts_S4000000x3_S31250x384))
    shapeCasts_S31250x1152_S4000000x9) shapeCasts_S4000000x9_S4000000x3x3

/-- What the host lines after the region leave in the result buffer. -/
theorem tail_eq (c : Dev nD) :
    (Pipeline.afterTail₀ cfgs (dats (F := F) m) 0 (V0 m) [hostOps1] c main_v4 : S4000000x3x3.Idx → Elt F .f32)
      = resultFn (m ((c : Thread nD τ).loc main_arg0)) (m ((c : Thread nD τ).loc main_arg1)) := by
  rw [tail_main_v4 m c, final2 m c, V_main_v0 m c, V_main_v1 m c]
  rfl

/-- Every weakly fair execution of @main terminates, the result buffer at `resultFn` of the arguments, the arguments
    as they were. -/
theorem run_value : θ_run defs (onTc (τ := τ) (main (F := F))) ⟨m, fun _ => 0, ρ⟩ (fun r => ∀ c : Dev nD,
      r.2.mem ((c.tc : Thread nD τ).loc main_v4) = resultFn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ rowLocal)

end Cert.KI

end
-- ==== Proof.RefSpec.lean ====
/-
  The reference's result for one gaussian, on the extended reals, as a function of seven scalars.

  The reference divides the raw quaternion (w, x, y, z) by its norm sqrt (w² + x² + y² + z²), forms the rotation matrix
  of the quotient (the same polynomial expressions, in the same order, as the kernel's: `Cert.Spec.rot`), multiplies
  column k by exp of the k-th log-scale, and contracts the scaled matrix with itself over the column index:
  entry (i, j) is the sum over k of RS (i, k) · RS (j, k).
-/
import proofs.«158826_j11218454577222_2_alg».proof.Proof.Spec
import Idealize.ShloMosaic.PureOps.Ideal

noncomputable section

namespace Cert.RefSpec

open Idealize.ShloMosaic

/-- The scaled rotation of the reference: the rotation of the quaternion DIVIDED by its norm, column k times
    exp of the k-th log-scale; entry (i, k) at 3 i + k. -/
def rsR (w x y z a b d : EReal) : Fin 9 → EReal :=
  let n : EReal := Ideal.sqrt (w * w + x * x + y * y + z * z)
  let R : Fin 9 → EReal := Cert.Spec.rot (F := Ideal) (Ideal.div w n) (Ideal.div x n) (Ideal.div y n) (Ideal.div z n)
  fun
  | 0 => R 0 * Ideal.exp a | 1 => R 1 * Ideal.exp b | 2 => R 2 * Ideal.exp d
  | 3 => R 3 * Ideal.exp a | 4 => R 4 * Ideal.exp b | 5 => R 5 * Ideal.exp d
  | 6 => R 6 * Ideal.exp a | 7 => R 7 * Ideal.exp b | 8 => R 8 * Ideal.exp d

/-- Entry (i, j) of RS · RSᵀ: the sum over the column index. -/
def covR (w x y z a b d : EReal) (i j : Fin 3) : EReal :=
  ∑ k : Fin 3, rsR w x y z a b d ⟨3 * i.val + k.val, by omega⟩ * rsR w x y z a b d ⟨3 * j.val + k.val, by omega⟩

end Cert.RefSpec

end
-- ==== Proof.RefValue.lean ====
/-
  The reference's result at one index.

  For row n the reference divides the quaternion (w, x, y, z) = rotation_raw[n, :] by its norm
  sqrt (0 + (w² + x² + y² + z²)), forms from the quotient the nine polynomial entries of its rotation matrix, lays
  them out as three rows of three, multiplies entry (i, k) by exp (scaling_raw[n, k]) and contracts the product with
  itself over k. Below, each of those stages is read at an index: first the norm and the four channels of the
  quotient, then the nine entries (each is, operation for operation, the entry of `Cert.Spec.rot` at the quotient),
  then the two joins that place entry 3 i + k at position (n, i, k), then the scaling, and last the contraction, whose
  sum over k is `Cert.RefSpec.covR`. Nothing here needs the inputs to be finite: every step is a definitional reading
  of an operation or the identity 0 + s = s.
-/
import proofs.«158826_j11218454577222_2_alg».proof.Proof.Gen.ReferenceIdeal.Read
import proofs.«158826_j11218454577222_2_alg».proof.Proof.RefSpec
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read
open scoped BigOperators

/-! ## Joining three unit pieces along the middle axis -/

section Join
variable {α : Type}

/-- Three columns [N, 1] joined along axis 1 into [N, 3]: column k of the result is piece k. -/
theorem cols_at (f0 f1 f2 : S4000000x1.Idx → α)
    (h : Shape.Concatenates ([(⟨S4000000x1, f0⟩ : (s : Shape) × (s.Idx → α)), ⟨S4000000x1, f1⟩, ⟨S4000000x1, f2⟩].map (·.1)) S4000000x3 1)
    (n : Fin 4000000) :
    concatenate S4000000x3 1 [⟨S4000000x1, f0⟩, ⟨S4000000x1, f1⟩, ⟨S4000000x1, f2⟩] h (ix2 n 0) = f0 (ix2 n 0)
    ∧ concatenate S4000000x3 1 [⟨S4000000x1, f0⟩, ⟨S4000000x1, f1⟩, ⟨S4000000x1, f2⟩] h (ix2 n 1) = f1 (ix2 n 0)
    ∧ concatenate S4000000x3 1 [⟨S4000000x1, f0⟩, ⟨S4000000x1, f1⟩, ⟨S4000000x1, f2⟩] h (ix2 n 2) = f2 (ix2 n 0) := by
  refine ⟨?_, ?_, ?_⟩
  · refine concatenate_apply_piece 1 _ h (ix2 n 0) 0 (by show (0 : Nat) < 3; omega) S4000000x1 f0 rfl rfl 0 rfl (ix2 n 0) ?_ rfl
    intro b hb
    match b, hb with
    | ⟨0, _⟩, _ => rfl
    | ⟨1, _⟩, hb => exact absurd rfl hb
  · refine concatenate_apply_piece 1 _ h (ix2 n 1) 1 (by show (1 : Nat) < 3; omega) S4000000x1 f1 rfl rfl 1 rfl (ix2 n 0) ?_ rfl
    intro b hb
    match b, hb with
    | ⟨0, _⟩, _ => rfl
    | ⟨1, _⟩, hb => exact absurd rfl hb
  · refine concatenate_apply_piece 1 _ h (ix2 n 2) 2 (by show (2 : Nat) < 3; omega) S4000000x1 f2 rfl rfl 2 rfl (ix2 n 0) ?_ rfl
    intro b hb
    match b, hb with
    | ⟨0, _⟩, _ => rfl
    | ⟨1, _⟩, hb => exact absurd rfl hb

/-- Three rows [N, 1, 3] joined along axis 1 into [N, 3, 3]: row i of the result is piece i. -/
theorem rows_at (f0 f1 f2 : S4000000x1x3.Idx → α)
    (h : Shape.Concatenates ([(⟨S4000000x1x3, f0⟩ : (s : Shape) × (s.Idx → α)), ⟨S4000000x1x3, f1⟩, ⟨S4000000x1x3, f2⟩].map (·.1)) S4000000x3x3 1)
    (n : Fin 4000000) (k : Fin 3) :
    concatenate S4000000x3x3 1 [⟨S4000000x1x3, f0⟩, ⟨S4000000x1x3, f1⟩, ⟨S4000000x1x3, f2⟩] h (ix3 n 0 k) = f0 (ix3 n 0 k)
    ∧ concatenate S4000000x3x3 1 [⟨S4000000x1x3, f0⟩, ⟨S4000000x1x3, f1⟩, ⟨S4000000x1x3, f2⟩] h (ix3 n 1 k) = f1 (ix3 n 0 k)
    ∧ concatenate S4000000x3x3 1 [⟨S4000000x1x3, f0⟩, ⟨S4000000x1x3, f1⟩, ⟨S4000000x1x3, f2⟩] h (ix3 n 2 k) = f2 (ix3 n 0 k) := by
  refine ⟨?_, ?_, ?_⟩
  · refine concatenate_apply_piece 1 _ h (ix3 n 0 k) 0 (by show (0 : Nat) < 3; omega) S4000000x1x3 f0 rfl rfl 0 rfl (ix3 n 0 k) ?_ rfl
    intro b hb
    match b, hb with
    | ⟨0, _⟩, _ => rfl
    | ⟨1, _⟩, hb => exact absurd rfl hb
    | ⟨2, _⟩, _ => rfl
  · refine concatenate_apply_piece 1 _ h (ix3 n 1 k) 1 (by show (1 : Nat) < 3; omega) S4000000x1x3 f1 rfl rfl 1 rfl (ix3 n 0 k) ?_ rfl
    intro b hb
    match b, hb with
    | ⟨0, _⟩, _ => rfl
    | ⟨1, _⟩, hb => exact absurd rfl hb
    | ⟨2, _⟩, _ => rfl
  · refine concatenate_apply_piece 1 _ h (ix3 n 2 k) 2 (by show (2 : Nat) < 3; omega) S4000000x1x3 f2 rfl rfl 2 rfl (ix3 n 0 k) ?_ rfl
    intro b hb
    match b, hb with
    | ⟨0, _⟩, _ => rfl
    | ⟨1, _⟩, hb => exact absurd rfl hb
    | ⟨2, _⟩, _ => rfl

end Join

/-! ## The normalised quaternion -/

/-- The norm of row n, as the reference computes it (the sum starts from the literal 0), at any column. -/
theorem norm_at (x0 : FVec Ideal S4000000x4 .f32) (n : Fin 4000000) (c : Fin 4) :
    val_main_v1 (F := Ideal) x0 (ix2 n c) = Ideal.sqrt (x0 (ix2 n 0) * x0 (ix2 n 0) + x0 (ix2 n 1) * x0 (ix2 n 1) + x0 (ix2 n 2) * x0 (ix2 n 2) + x0 (ix2 n 3) * x0 (ix2 n 3)) := by
  have e1 : idx_main_call0_v2 (idx_main_v1 (ix2 n c)) = ix1 n :=
    funext fun a => Fin.ext (by match a with | ⟨0, _⟩ => rfl)
  have e2 : ∀ k : Fin 4, idx_main_call0_v1 (ix1 n) k = ix2 n k := fun k =>
    funext fun a => Fin.ext (by match a with | ⟨0, _⟩ => rfl | ⟨1, _⟩ => rfl)
  rw [val_main_v1_apply, val_main_v0_apply, val_main_call0_v2_apply, e1, val_main_call0_v1_apply,
    val_main_call0_cst_apply]
  simp only [e2, val_main_call0_v0_apply, Fin.sum_univ_four, Ideal.mulf_def, Ideal.hostUnary_sqrt_def, Ideal.ofBits_def,
    Ideal.ofBits_zero_f32, zero_add]

/-- Channel c of the quaternion of row n divided by the row's norm. -/
def qn (x0 : FVec Ideal S4000000x4 .f32) (n : Fin 4000000) (c : Fin 4) : EReal :=
  Ideal.div (x0 (ix2 n c)) (Ideal.sqrt (x0 (ix2 n 0) * x0 (ix2 n 0) + x0 (ix2 n 1) * x0 (ix2 n 1) + x0 (ix2 n 2) * x0 (ix2 n 2) + x0 (ix2 n 3) * x0 (ix2 n 3)))

/-- The quotient at (n, c): the raw channel over the row's norm. -/
theorem quat_at (x0 : FVec Ideal S4000000x4 .f32) (n : Fin 4000000) (c : Fin 4) :
    val_main_v2 (F := Ideal) x0 (ix2 n c) = qn x0 n c := by
  rw [val_main_v2_apply, norm_at]
  rfl

/-- Channel 0 as a vector over the rows: a unit-width slice of the quotient, reshaped. -/
theorem q0_at (x0 : FVec Ideal S4000000x4 .f32) (n : Fin 4000000) : val_main_v4 (F := Ideal) x0 (ix1 n) = qn x0 n 0 := by
  have e : idx_main_v3 (idx_main_v4 (ix1 n)) = ix2 n 0 :=
    funext fun a => Fin.ext (by match a with | ⟨0, _⟩ => exact Nat.div_one _ | ⟨1, _⟩ => rfl)
  rw [val_main_v4_apply, val_main_v3_apply, e, quat_at]

/-- Channel 1 as a vector over the rows: a unit-width slice of the quotient, reshaped. -/
theorem q1_at (x0 : FVec Ideal S4000000x4 .f32) (n : Fin 4000000) : val_main_v6 (F := Ideal) x0 (ix1 n) = qn x0 n 1 := by
  have e : idx_main_v5 (idx_main_v6 (ix1 n)) = ix2 n 1 :=
    funext fun a => Fin.ext (by match a with | ⟨0, _⟩ => exact Nat.div_one _ | ⟨1, _⟩ => rfl)
  rw [val_main_v6_apply, val_main_v5_apply, e, quat_at]

/-- Channel 2 as a vector over the rows: a unit-width slice of the quotient, reshaped. -/
theorem q2_at (x0 : FVec Ideal S4000000x4 .f32) (n : Fin 4000000) : val_main_v8 (F := Ideal) x0 (ix1 n) = qn x0 n 2 := by
  have e : idx_main_v7 (idx_main_v8 (ix1 n)) = ix2 n 2 :=
    funext fun a => Fin.ext (by match a with | ⟨0, _⟩ => exact Nat.div_one _ | ⟨1, _⟩ => rfl)
  rw [val_main_v8_apply, val_main_v7_apply, e, quat_at]

/-- Channel 3 as a vector over the rows: a unit-width slice of the quotient, reshaped. -/
theorem q3_at (x0 : FVec Ideal S4000000x4 .f32) (n : Fin 4000000) : val_main_v10 (F := Ideal) x0 (ix1 n) = qn x0 n 3 := by
  have e : idx_main_v9 (idx_main_v10 (ix1 n)) = ix2 n 3 :=
    funext fun a => Fin.ext (by match a with | ⟨0, _⟩ => exact Nat.div_one _ | ⟨1, _⟩ => rfl)
  rw [val_main_v10_apply, val_main_v9_apply, e, quat_at]

/-! ## The nine entries of the rotation matrix

Each entry is built from the literals 2 and 1 broadcast over the rows and the four channels, in the same order of
operations as `Cert.Spec.rot` spells it. -/

/-- Entry 0 (row 0, column 0): 1 − 2yy − 2zz of the quotient (w, x, y, z), as a vector over the rows. -/
theorem r0_at (x0 : FVec Ideal S4000000x4 .f32) (n : Fin 4000000) :
    val_main_v19 (F := Ideal) x0 (ix1 n) = Cert.Spec.rot (F := Ideal) (qn x0 n 0) (qn x0 n 1) (qn x0 n 2) (qn x0 n 3) 0 := by
  rw [val_main_v19_apply, val_main_v15_apply, val_main_v14_apply, val_main_cst_0_apply, val_main_v13_apply, val_main_v12_apply, val_main_v11_apply, val_main_cst_apply, val_main_v18_apply, val_main_v17_apply, val_main_v16_apply, val_main_cst_1_apply]
  rw [q2_at, q3_at]
  rfl

/-- Entry 1 (row 0, column 1): 2xy − 2wz of the quotient (w, x, y, z), as a vector over the rows. -/
theorem r1_at (x0 : FVec Ideal S4000000x4 .f32) (n : Fin 4000000) :
    val_main_v26 (F := Ideal) x0 (ix1 n) = Cert.Spec.rot (F := Ideal) (qn x0 n 0) (qn x0 n 1) (qn x0 n 2) (qn x0 n 3) 1 := by
  rw [val_main_v26_apply, val_main_v22_apply, val_main_v21_apply, val_main_v20_apply, val_main_cst_2_apply, val_main_v25_apply, val_main_v24_apply, val_main_v23_apply, val_main_cst_3_apply]
  rw [q0_at, q1_at, q2_at, q3_at]
  rfl

/-- Entry 2 (row 0, column 2): 2xz + 2wy of the quotient (w, x, y, z), as a vector over the rows. -/
theorem r2_at (x0 : FVec Ideal S4000000x4 .f32) (n : Fin 4000000) :
    val_main_v33 (F := Ideal) x0 (ix1 n) = Cert.Spec.rot (F := Ideal) (qn x0 n 0) (qn x0 n 1) (qn x0 n 2) (qn x0 n 3) 2 := by
  rw [val_main_v33_apply, val_main_v29_apply, val_main_v28_apply, val_main_v27_apply, val_main_cst_4_apply, val_main_v32_apply, val_main_v31_apply, val_main_v30_apply, val_main_cst_5_apply]
  rw [q0_at, q1_at, q2_at, q3_at]
  rfl

/-- Entry 3 (row 1, column 0): 2xy + 2wz of the quotient (w, x, y, z), as a vector over the rows. -/
theorem r3_at (x0 : FVec Ideal S4000000x4 .f32) (n : Fin 4000000) :
    val_main_v44 (F := Ideal) x0 (ix1 n) = Cert.Spec.rot (F := Ideal) (qn x0 n 0) (qn x0 n 1) (qn x0 n 2) (qn x0 n 3) 3 := by
  rw [val_main_v44_apply, val_main_v40_apply, val_main_v39_apply, val_main_v38_apply, val_main_cst_6_apply, val_main_v43_apply, val_main_v42_apply, val_main_v41_apply, val_main_cst_7_apply]
  rw [q0_at, q1_at, q2_at, q3_at]
  rfl

/-- Entry 4 (row 1, column 1): 1 − 2xx − 2zz of the quotient (w, x, y, z), as a vector over the rows. -/
theorem r4_at (x0 : FVec Ideal S4000000x4 .f32) (n : Fin 4000000) :
    val_main_v53 (F := Ideal) x0 (ix1 n) = Cert.Spec.rot (F := Ideal) (qn x0 n 0) (qn x0 n 1) (qn x0 n 2) (qn x0 n 3) 4 := by
  rw [val_main_v53_apply, val_main_v49_apply, val_main_v48_apply, val_main_cst_9_apply, val_main_v47_apply, val_main_v46_apply, val_main_v45_apply, val_main_cst_8_apply, val_main_v52_apply, val_main_v51_apply, val_main_v50_apply, val_main_cst_10_apply]
  rw [q1_at, q3_at]
  rfl

/-- Entry 5 (row 1, column 2): 2yz − 2wx of the quotient (w, x, y, z), as a vector over the rows. -/
theorem r5_at (x0 : FVec Ideal S4000000x4 .f32) (n : Fin 4000000) :
    val_main_v60 (F := Ideal) x0 (ix1 n) = Cert.Spec.rot (F := Ideal) (qn x0 n 0) (qn x0 n 1) (qn x0 n 2) (qn x0 n 3) 5 := by
  rw [val_main_v60_apply, val_main_v56_apply, val_main_v55_apply, val_main_v54_apply, val_main_cst_11_apply, val_main_v59_apply, val_main_v58_apply, val_main_v57_apply, val_main_cst_12_apply]
  rw [q0_at, q1_at, q2_at, q3_at]
  rfl

/-- Entry 6 (row 2, column 0): 2xz − 2wy of the quotient (w, x, y, z), as a vector over the rows. -/
theorem r6_at (x0 : FVec Ideal S4000000x4 .f32) (n : Fin 4000000) :
    val_main_v71 (F := Ideal) x0 (ix1 n) = Cert.Spec.rot (F := Ideal) (qn x0 n 0) (qn x0 n 1) (qn x0 n 2) (qn x0 n 3) 6 := by
  rw [val_main_v71_apply, val_main_v67_apply, val_main_v66_apply, val_main_v65_apply, val_main_cst_13_apply, val_main_v70_apply, val_main_v69_apply, val_main_v68_apply, val_main_cst_14_apply]
  rw [q0_at, q1_at, q2_at, q3_at]
  rfl

/-- Entry 7 (row 2, column 1): 2yz + 2wx of the quotient (w, x, y, z), as a vector over the rows. -/
theorem r7_at (x0 : FVec Ideal S4000000x4 .f32) (n : Fin 4000000) :
    val_main_v78 (F := Ideal) x0 (ix1 n) = Cert.Spec.rot (F := Ideal) (qn x0 n 0) (qn x0 n 1) (qn x0 n 2) (qn x0 n 3) 7 := by
  rw [val_main_v78_apply, val_main_v74_apply, val_main_v73_apply, val_main_v72_apply, val_main_cst_15_apply, val_main_v77_apply, val_main_v76_apply, val_main_v75_apply, val_main_cst_16_apply]
  rw [q0_at, q1_at, q2_at, q3_at]
  rfl

/-- Entry 8 (row 2, column 2): 1 − 2xx − 2yy of the quotient (w, x, y, z), as a vector over the rows. -/
theorem r8_at (x0 : FVec Ideal S4000000x4 .f32) (n : Fin 4000000) :
    val_main_v87 (F := Ideal) x0 (ix1 n) = Cert.Spec.rot (F := Ideal) (qn x0 n 0) (qn x0 n 1) (qn x0 n 2) (qn x0 n 3) 8 := by
  rw [val_main_v87_apply, val_main_v83_apply, val_main_v82_apply, val_main_cst_18_apply, val_main_v81_apply, val_main_v80_apply, val_main_v79_apply, val_main_cst_17_apply, val_main_v86_apply, val_main_v85_apply, val_main_v84_apply, val_main_cst_19_apply]
  rw [q1_at, q2_at]
  rfl

/-! ## Laying the entries out: three rows of three, then the matrix -/

/-- Row 0 of the matrix: its column k is entry 0 + k, a vector over the rows made a unit column and joined. -/
theorem row0_at (x0 : FVec Ideal S4000000x4 .f32) (n : Fin 4000000) :
    val_main_v37 (F := Ideal) x0 (ix2 n 0) = val_main_v19 (F := Ideal) x0 (ix1 n)
    ∧ val_main_v37 (F := Ideal) x0 (ix2 n 1) = val_main_v26 (F := Ideal) x0 (ix1 n)
    ∧ val_main_v37 (F := Ideal) x0 (ix2 n 2) = val_main_v33 (F := Ideal) x0 (ix1 n) := by
  obtain ⟨h0, h1, h2⟩ := cols_at (val_main_v34 (F := Ideal) x0) (val_main_v35 (F := Ideal) x0) (val_main_v36 (F := Ideal) x0)
    Cert.ReferenceIdeal.Gen.concatenates_S4000000x1_S4000000x1_S4000000x1_S4000000x3_d1 n
  have e0 : idx_main_v34 (ix2 n 0) = ix1 n := funext fun a => Fin.ext (by match a with | ⟨0, _⟩ => rfl)
  have e1 : idx_main_v35 (ix2 n 0) = ix1 n := funext fun a => Fin.ext (by match a with | ⟨0, _⟩ => rfl)
  have e2 : idx_main_v36 (ix2 n 0) = ix1 n := funext fun a => Fin.ext (by match a with | ⟨0, _⟩ => rfl)
  refine ⟨?_, ?_, ?_⟩
  · unfold val_main_v37; rw [h0, val_main_v34_apply, e0]
  · unfold val_main_v37; rw [h1, val_main_v35_apply, e1]
  · unfold val_main_v37; rw [h2, val_main_v36_apply, e2]

/-- Row 1 of the matrix: its column k is entry 3 + k, a vector over the rows made a unit column and joined. -/
theorem row1_at (x0 : FVec Ideal S4000000x4 .f32) (n : Fin 4000000) :
    val_main_v64 (F := Ideal) x0 (ix2 n 0) = val_main_v44 (F := Ideal) x0 (ix1 n)
    ∧ val_main_v64 (F := Ideal) x0 (ix2 n 1) = val_main_v53 (F := Ideal) x0 (ix1 n)
    ∧ val_main_v64 (F := Ideal) x0 (ix2 n 2) = val_main_v60 (F := Ideal) x0 (ix1 n) := by
  obtain ⟨h0, h1, h2⟩ := cols_at (val_main_v61 (F := Ideal) x0) (val_main_v62 (F := Ideal) x0) (val_main_v63 (F := Ideal) x0)
    Cert.ReferenceIdeal.Gen.concatenates_S4000000x1_S4000000x1_S4000000x1_S4000000x3_d1 n
  have e0 : idx_main_v61 (ix2 n 0) = ix1 n := funext fun a => Fin.ext (by match a with | ⟨0, _⟩ => rfl)
  have e1 : idx_main_v62 (ix2 n 0) = ix1 n := funext fun a => Fin.ext (by match a with | ⟨0, _⟩ => rfl)
  have e2 : idx_main_v63 (ix2 n 0) = ix1 n := funext fun a => Fin.ext (by match a with | ⟨0, _⟩ => rfl)
  refine ⟨?_, ?_, ?_⟩
  · unfold val_main_v64; rw [h0, val_main_v61_apply, e0]
  · unfold val_main_v64; rw [h1, val_main_v62_apply, e1]
  · unfold val_main_v64; rw [h2, val_main_v63_apply, e2]

/-- Row 2 of the matrix: its column k is entry 6 + k, a vector over the rows made a unit column and joined. -/
theorem row2_at (x0 : FVec Ideal S4000000x4 .f32) (n : Fin 4000000) :
    val_main_v91 (F := Ideal) x0 (ix2 n 0) = val_main_v71 (F := Ideal) x0 (ix1 n)
    ∧ val_main_v91 (F := Ideal) x0 (ix2 n 1) = val_main_v78 (F := Ideal) x0 (ix1 n)
    ∧ val_main_v91 (F := Ideal) x0 (ix2 n 2) = val_main_v87 (F := Ideal) x0 (ix1 n) := by
  obtain ⟨h0, h1, h2⟩ := cols_at (val_main_v88 (F := Ideal) x0) (val_main_v89 (F := Ideal) x0) (val_main_v90 (F := Ideal) x0)
    Cert.ReferenceIdeal.Gen.concatenates_S4000000x1_S4000000x1_S4000000x1_S4000000x3_d1 n
  have e0 : idx_main_v88 (ix2 n 0) = ix1 n := funext fun a => Fin.ext (by match a with | ⟨0, _⟩ => rfl)
  have e1 : idx_main_v89 (ix2 n 0) = ix1 n := funext fun a => Fin.ext (by match a with | ⟨0, _⟩ => rfl)
  have e2 : idx_main_v90 (ix2 n 0) = ix1 n := funext fun a => Fin.ext (by match a with | ⟨0, _⟩ => rfl)
  refine ⟨?_, ?_, ?_⟩
  · unfold val_main_v91; rw [h0, val_main_v88_apply, e0]
  · unfold val_main_v91; rw [h1, val_main_v89_apply, e1]
  · unfold val_main_v91; rw [h2, val_main_v90_apply, e2]

/-- The matrix: its row i is the i-th of the three rows, given a unit middle axis and joined along it. -/
theorem mat_at (x0 : FVec Ideal S4000000x4 .f32) (n : Fin 4000000) (k : Fin 3) :
    val_main_v95 (F := Ideal) x0 (ix3 n 0 k) = val_main_v37 (F := Ideal) x0 (ix2 n k)
    ∧ val_main_v95 (F := Ideal) x0 (ix3 n 1 k) = val_main_v64 (F := Ideal) x0 (ix2 n k)
    ∧ val_main_v95 (F := Ideal) x0 (ix3 n 2 k) = val_main_v91 (F := Ideal) x0 (ix2 n k) := by
  obtain ⟨h0, h1, h2⟩ := rows_at (val_main_v92 (F := Ideal) x0) (val_main_v93 (F := Ideal) x0) (val_main_v94 (F := Ideal) x0)
    Cert.ReferenceIdeal.Gen.concatenates_S4000000x1x3_S4000000x1x3_S4000000x1x3_S4000000x3x3_d1 n k
  have e0 : idx_main_v92 (ix3 n 0 k) = ix2 n k :=
    funext fun a => Fin.ext (by match a with | ⟨0, _⟩ => rfl | ⟨1, _⟩ => rfl)
  have e1 : idx_main_v93 (ix3 n 0 k) = ix2 n k :=
    funext fun a => Fin.ext (by match a with | ⟨0, _⟩ => rfl | ⟨1, _⟩ => rfl)
  have e2 : idx_main_v94 (ix3 n 0 k) = ix2 n k :=
    funext fun a => Fin.ext (by match a with | ⟨0, _⟩ => rfl | ⟨1, _⟩ => rfl)
  refine ⟨?_, ?_, ?_⟩
  · unfold val_main_v95; rw [h0, val_main_v92_apply, e0]
  · unfold val_main_v95; rw [h1, val_main_v93_apply, e1]
  · unfold val_main_v95; rw [h2, val_main_v94_apply, e2]

/-! ## The scaling and the scaled matrix -/

/-- The factor at (n, i, k): exp of the k-th log-scale of row n, whatever the row i of the matrix. -/
theorem scale_at (x1 : FVec Ideal S4000000x3 .f32) (n : Fin 4000000) (i k : Fin 3) :
    val_main_v98 (F := Ideal) x1 (ix3 n i k) = Ideal.exp (x1 (ix2 n k)) := by
  have e : idx_main_v97 (idx_main_v98 (ix3 n i k)) = ix2 n k :=
    funext fun a => Fin.ext (by match a with | ⟨0, _⟩ => rfl | ⟨1, _⟩ => rfl)
  rw [val_main_v98_apply, val_main_v97_apply, e, val_main_v96_apply]
  rfl

/-- Entry (0, 0) of the scaled matrix: rotation entry 0 times exp of log-scale 0. -/
theorem rs00_at (x0 : FVec Ideal S4000000x4 .f32) (x1 : FVec Ideal S4000000x3 .f32) (n : Fin 4000000) :
    val_main_v99 (F := Ideal) x0 x1 (ix3 n 0 0) = Cert.RefSpec.rsR (x0 (ix2 n 0)) (x0 (ix2 n 1)) (x0 (ix2 n 2)) (x0 (ix2 n 3)) (x1 (ix2 n 0)) (x1 (ix2 n 1)) (x1 (ix2 n 2)) 0 := by
  rw [val_main_v99_apply, (mat_at x0 n 0).1, (row0_at x0 n).1, r0_at, scale_at]
  rfl

/-- Entry (0, 1) of the scaled matrix: rotation entry 1 times exp of log-scale 1. -/
theorem rs01_at (x0 : FVec Ideal S4000000x4 .f32) (x1 : FVec Ideal S4000000x3 .f32) (n : Fin 4000000) :
    val_main_v99 (F := Ideal) x0 x1 (ix3 n 0 1) = Cert.RefSpec.rsR (x0 (ix2 n 0)) (x0 (ix2 n 1)) (x0 (ix2 n 2)) (x0 (ix2 n 3)) (x1 (ix2 n 0)) (x1 (ix2 n 1)) (x1 (ix2 n 2)) 1 := by
  rw [val_main_v99_apply, (mat_at x0 n 1).1, (row0_at x0 n).2.1, r1_at, scale_at]
  rfl

/-- Entry (0, 2) of the scaled matrix: rotation entry 2 times exp of log-scale 2. -/
theorem rs02_at (x0 : FVec Ideal S4000000x4 .f32) (x1 : FVec Ideal S4000000x3 .f32) (n : Fin 4000000) :
    val_main_v99 (F := Ideal) x0 x1 (ix3 n 0 2) = Cert.RefSpec.rsR (x0 (ix2 n 0)) (x0 (ix2 n 1)) (x0 (ix2 n 2)) (x0 (ix2 n 3)) (x1 (ix2 n 0)) (x1 (ix2 n 1)) (x1 (ix2 n 2)) 2 := by
  rw [val_main_v99_apply, (mat_at x0 n 2).1, (row0_at x0 n).2.2, r2_at, scale_at]
  rfl

/-- Entry (1, 0) of the scaled matrix: rotation entry 3 times exp of log-scale 0. -/
theorem rs10_at (x0 : FVec Ideal S4000000x4 .f32) (x1 : FVec Ideal S4000000x3 .f32) (n : Fin 4000000) :
    val_main_v99 (F := Ideal) x0 x1 (ix3 n 1 0) = Cert.RefSpec.rsR (x0 (ix2 n 0)) (x0 (ix2 n 1)) (x0 (ix2 n 2)) (x0 (ix2 n 3)) (x1 (ix2 n 0)) (x1 (ix2 n 1)) (x1 (ix2 n 2)) 3 := by
  rw [val_main_v99_apply, (mat_at x0 n 0).2.1, (row1_at x0 n).1, r3_at, scale_at]
  rfl

/-- Entry (1, 1) of the scaled matrix: rotation entry 4 times exp of log-scale 1. -/
theorem rs11_at (x0 : FVec Ideal S4000000x4 .f32) (x1 : FVec Ideal S4000000x3 .f32) (n : Fin 4000000) :
    val_main_v99 (F := Ideal) x0 x1 (ix3 n 1 1) = Cert.RefSpec.rsR (x0 (ix2 n 0)) (x0 (ix2 n 1)) (x0 (ix2 n 2)) (x0 (ix2 n 3)) (x1 (ix2 n 0)) (x1 (ix2 n 1)) (x1 (ix2 n 2)) 4 := by
  rw [val_main_v99_apply, (mat_at x0 n 1).2.1, (row1_at x0 n).2.1, r4_at, scale_at]
  rfl

/-- Entry (1, 2) of the scaled matrix: rotation entry 5 times exp of log-scale 2. -/
theorem rs12_at (x0 : FVec Ideal S4000000x4 .f32) (x1 : FVec Ideal S4000000x3 .f32) (n : Fin 4000000) :
    val_main_v99 (F := Ideal) x0 x1 (ix3 n 1 2) = Cert.RefSpec.rsR (x0 (ix2 n 0)) (x0 (ix2 n 1)) (x0 (ix2 n 2)) (x0 (ix2 n 3)) (x1 (ix2 n 0)) (x1 (ix2 n 1)) (x1 (ix2 n 2)) 5 := by
  rw [val_main_v99_apply, (mat_at x0 n 2).2.1, (row1_at x0 n).2.2, r5_at, scale_at]
  rfl

/-- Entry (2, 0) of the scaled matrix: rotation entry 6 times exp of log-scale 0. -/
theorem rs20_at (x0 : FVec Ideal S4000000x4 .f32) (x1 : FVec Ideal S4000000x3 .f32) (n : Fin 4000000) :
    val_main_v99 (F := Ideal) x0 x1 (ix3 n 2 0) = Cert.RefSpec.rsR (x0 (ix2 n 0)) (x0 (ix2 n 1)) (x0 (ix2 n 2)) (x0 (ix2 n 3)) (x1 (ix2 n 0)) (x1 (ix2 n 1)) (x1 (ix2 n 2)) 6 := by
  rw [val_main_v99_apply, (mat_at x0 n 0).2.2, (row2_at x0 n).1, r6_at, scale_at]
  rfl

/-- Entry (2, 1) of the scaled matrix: rotation entry 7 times exp of log-scale 1. -/
theorem rs21_at (x0 : FVec Ideal S4000000x4 .f32) (x1 : FVec Ideal S4000000x3 .f32) (n : Fin 4000000) :
    val_main_v99 (F := Ideal) x0 x1 (ix3 n 2 1) = Cert.RefSpec.rsR (x0 (ix2 n 0)) (x0 (ix2 n 1)) (x0 (ix2 n 2)) (x0 (ix2 n 3)) (x1 (ix2 n 0)) (x1 (ix2 n 1)) (x1 (ix2 n 2)) 7 := by
  rw [val_main_v99_apply, (mat_at x0 n 1).2.2, (row2_at x0 n).2.1, r7_at, scale_at]
  rfl

/-- Entry (2, 2) of the scaled matrix: rotation entry 8 times exp of log-scale 2. -/
theorem rs22_at (x0 : FVec Ideal S4000000x4 .f32) (x1 : FVec Ideal S4000000x3 .f32) (n : Fin 4000000) :
    val_main_v99 (F := Ideal) x0 x1 (ix3 n 2 2) = Cert.RefSpec.rsR (x0 (ix2 n 0)) (x0 (ix2 n 1)) (x0 (ix2 n 2)) (x0 (ix2 n 3)) (x1 (ix2 n 0)) (x1 (ix2 n 1)) (x1 (ix2 n 2)) 8 := by
  rw [val_main_v99_apply, (mat_at x0 n 2).2.2, (row2_at x0 n).2.2, r8_at, scale_at]
  rfl

/-- Entry (i, k) of the scaled matrix of row n is entry 3 i + k of `Cert.RefSpec.rsR`. -/
theorem rs_at (x0 : FVec Ideal S4000000x4 .f32) (x1 : FVec Ideal S4000000x3 .f32) (n : Fin 4000000) (i k : Fin 3) :
    val_main_v99 (F := Ideal) x0 x1 (ix3 n i k) = Cert.RefSpec.rsR (x0 (ix2 n 0)) (x0 (ix2 n 1)) (x0 (ix2 n 2)) (x0 (ix2 n 3)) (x1 (ix2 n 0)) (x1 (ix2 n 1)) (x1 (ix2 n 2)) ⟨3 * i.val + k.val, by omega⟩ := by
  match i, k with
  | ⟨0, _⟩, ⟨0, _⟩ => exact rs00_at x0 x1 n
  | ⟨0, _⟩, ⟨1, _⟩ => exact rs01_at x0 x1 n
  | ⟨0, _⟩, ⟨2, _⟩ => exact rs02_at x0 x1 n
  | ⟨1, _⟩, ⟨0, _⟩ => exact rs10_at x0 x1 n
  | ⟨1, _⟩, ⟨1, _⟩ => exact rs11_at x0 x1 n
  | ⟨1, _⟩, ⟨2, _⟩ => exact rs12_at x0 x1 n
  | ⟨2, _⟩, ⟨0, _⟩ => exact rs20_at x0 x1 n
  | ⟨2, _⟩, ⟨1, _⟩ => exact rs21_at x0 x1 n
  | ⟨2, _⟩, ⟨2, _⟩ => exact rs22_at x0 x1 n

/-! ## The contraction -/

/-- The reference's result at (n, i, j): the sum over k of the products of entries (i, k) and (j, k) of the scaled matrix. -/
theorem result_apply (x0 : FVec Ideal S4000000x4 .f32) (x1 : FVec Ideal S4000000x3 .f32) (n : Fin 4000000) (i j : Fin 3) :
    val_main_v100 (F := Ideal) x0 x1 (ix3 n i j)
      = Cert.RefSpec.covR (x0 (ix2 n 0)) (x0 (ix2 n 1)) (x0 (ix2 n 2)) (x0 (ix2 n 3)) (x1 (ix2 n 0)) (x1 (ix2 n 1)) (x1 (ix2 n 2)) i j := by
  have el : ∀ k : Fin 3, lidx_main_v100 (ix3 n i j) k = ix3 n i k := fun k =>
    funext fun a => Fin.ext (by match a with | ⟨0, _⟩ => rfl | ⟨1, _⟩ => rfl | ⟨2, _⟩ => rfl)
  have er : ∀ k : Fin 3, ridx_main_v100 (ix3 n i j) k = ix3 n j k := fun k =>
    funext fun a => Fin.ext (by match a with | ⟨0, _⟩ => rfl | ⟨1, _⟩ => rfl | ⟨2, _⟩ => rfl)
  rw [val_main_v100_apply]
  unfold Cert.RefSpec.covR
  refine Finset.sum_congr rfl fun k _ => ?_
  rw [el, er, rs_at, rs_at]

end Cert.RefValue

end
-- ==== Proof.PreDecode.lean ====
/-
  The precondition read back at the extended reals.

  The precondition is a conjunction of three universally quantified facts about the two input arrays:
  every entry of the rotation array (one quaternion per row, four entries) has absolute value below +∞,
  every entry of the scale array (three entries per row) has absolute value below +∞, and every row of
  the rotation array has a positive sum of squares, so that dividing by the quaternion's norm stays
  inside the domain of division. An extended real whose absolute value max x (-x) lies below ⊤ is
  neither ⊤ nor ⊥, hence a real number; the word 0x7F800000 denotes ⊤ and the zero word denotes 0; a
  row sum starting from 0 over the four entries of a row is the sum of the four squares.
-/
import proofs.«158826_j11218454577222_2_alg».proof.Pre_finite_inputs
import proofs.«158826_j11218454577222_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- The word 0x7F800000 (sign 0, exponent all ones, fraction 0) denotes +∞. -/
theorem ofBits_inf : Ideal.ofBits .f32 0x7F800000#32 = (⊤ : EReal) := by simp [Ideal.ofBits, Ideal.ieee]

/-- A truth value written as a one-bit word is 1 exactly when it is true. -/
theorem ofBool_eq_one (b : Bool) : BitVec.ofBool b = 1#1 ↔ b = true := by cases b <;> decide

/-- A scalar constant broadcast to any shape has the constant's value at every index. -/
theorem splat_apply {t : Shape} (dims : Fin S_.rank → Fin t.rank) (hb : S_.BroadcastsInDim t dims)
    (b : BitVec FTy.f32.bits) (i : t.Idx) :
    broadcastInDim t dims hb (constant (F := Ideal) S_ .f32 b) i = Ideal.ofBits .f32 b := rfl

/-- The host's absolute value at an index: the larger of the entry and its negation. -/
theorem hostAbsf_apply {s : Shape} (x : FVec Ideal s .f32) (i : s.Idx) : Host.absf x i = max (x i) (-(x i)) := rfl

/-- An extended real whose absolute value is below +∞ is a real number: at ⊤ and at ⊥ the absolute
    value max x (-x) is ⊤, which is not below itself. -/
theorem real_of_abs_lt_inf (x : EReal) (h : Ideal.cmp .olt (max x (-x)) ⊤ = 1#1) : ∃ r : ℝ, x = (r : EReal) := by
  unfold Ideal.cmp at h
  rw [ofBool_eq_one] at h
  induction x using EReal.rec with
  | bot => simp at h
  | coe r => exact ⟨r, rfl⟩
  | top => simp at h

/-- The strict comparison "greater than zero" is positivity. -/
theorem pos_of_gt_zero (x : EReal) (h : Ideal.cmp .ogt x 0 = 1#1) : (0 : EReal) < x := by
  unfold Ideal.cmp at h
  rw [ofBool_eq_one] at h
  simpa using h

/-- The host's sum over the second axis of a [4000000, 4] array, started at the zero word, at row n:
    the sum of the row's four entries. -/
theorem rowsum [Cert.Pre_finite_inputs.Facts] (y : FVec Ideal S4000000x4 .f32) (n : Fin 4000000) :
    Host.reduceAdd (F := Ideal) y (constant (F := Ideal) S_ .f32 0x00000000#32)
        Facts.reducesTo_S4000000x4_S4000000_d1 Facts.h_S_ (ix1 n)
      = y (ix2 n 0) + y (ix2 n 1) + y (ix2 n 2) + y (ix2 n 3) := by
  have e : Host.reduceAdd (F := Ideal) y (constant (F := Ideal) S_ .f32 0x00000000#32)
        Facts.reducesTo_S4000000x4_S4000000_d1 Facts.h_S_ (ix1 n)
      = Ideal.ofBits .f32 0x00000000#32 + ∑ k : Fin 4, y (ix2 n k) := by
    simp only [Host.reduceAdd, Ideal.hostReduceAdd_def]
    rw [Ideal.hostReduceAdd_single Facts.reducesTo_S4000000x4_S4000000_d1 (by decide)]
    refine congrArg (_ + ·) (Finset.sum_congr rfl fun k _ => ?_)
    exact congrArg y (funext fun a => Fin.ext (by match a with | ⟨0, _⟩ => rfl | ⟨1, _⟩ => rfl))
  rw [e, Ideal.ofBits_zero_f32, zero_add, Fin.sum_univ_four]

theorem rot_real [Cert.Pre_finite_inputs.Facts] (x0 : FVec Ideal S4000000x4 .f32) (x1 : FVec Ideal S4000000x3 .f32)
    (h : Cert.Pre_finite_inputs.fn (F := Ideal) x0 x1 = fun _ => 1#1) (n : Fin 4000000) (k : Fin 4) : ∃ r : ℝ, x0 (ix2 n k) = (r : EReal) := by
  have e := congrFun h ValueIdx.ix0
  dsimp only [Cert.Pre_finite_inputs.fn] at e
  obtain ⟨e01, -⟩ := IntOp.andi_eq_one.1 e
  obtain ⟨e0, -⟩ := IntOp.andi_eq_one.1 e01
  have c := Host.reduce_andi_all _ _ _ _ _ e0 (ix2 n k)
  rw [cmpf_apply, Ideal.cmpf_def, splat_apply, ofBits_inf, hostAbsf_apply] at c
  exact real_of_abs_lt_inf _ c

theorem scal_real [Cert.Pre_finite_inputs.Facts] (x0 : FVec Ideal S4000000x4 .f32) (x1 : FVec Ideal S4000000x3 .f32)
    (h : Cert.Pre_finite_inputs.fn (F := Ideal) x0 x1 = fun _ => 1#1) (n : Fin 4000000) (k : Fin 3) : ∃ r : ℝ, x1 (ix2 n k) = (r : EReal) := by
  have e := congrFun h ValueIdx.ix0
  dsimp only [Cert.Pre_finite_inputs.fn] at e
  obtain ⟨e01, -⟩ := IntOp.andi_eq_one.1 e
  obtain ⟨-, e1⟩ := IntOp.andi_eq_one.1 e01
  have c := Host.reduce_andi_all _ _ _ _ _ e1 (ix2 n k)
  rw [cmpf_apply, Ideal.cmpf_def, splat_apply, ofBits_inf, hostAbsf_apply] at c
  exact real_of_abs_lt_inf _ c

theorem norm_pos [Cert.Pre_finite_inputs.Facts] (x0 : FVec Ideal S4000000x4 .f32) (x1 : FVec Ideal S4000000x3 .f32)
    (h : Cert.Pre_finite_inputs.fn (F := Ideal) x0 x1 = fun _ => 1#1) (n : Fin 4000000) :
    (0 : EReal) < x0 (ix2 n 0) * x0 (ix2 n 0) + x0 (ix2 n 1) * x0 (ix2 n 1) + x0 (ix2 n 2) * x0 (ix2 n 2) + x0 (ix2 n 3) * x0 (ix2 n 3) := by
  have e := congrFun h ValueIdx.ix0
  dsimp only [Cert.Pre_finite_inputs.fn] at e
  obtain ⟨-, e2⟩ := IntOp.andi_eq_one.1 e
  have c := Host.reduce_andi_all _ _ _ _ _ e2 (ix1 n)
  rw [cmpf_apply, Ideal.cmpf_def, splat_apply, Ideal.ofBits_zero_f32, rowsum] at c
  exact pos_of_gt_zero _ c

end Cert.PreDecode

end
-- ==== Proof.Algebra.lean ====
/-
  The law that joins the two formulas for one gaussian's covariance, on the extended reals.

  Both formulas start from a raw quaternion (w, x, y, z) and three log-scales (a, b, d). One multiplies the quaternion
  by the reciprocal square root of N = w² + x² + y² + z², the other divides it by the square root of N. For real
  inputs with N > 0 both give the same four real numbers q / sqrt N, because on the reals
  q · (sqrt N)⁻¹ = q / sqrt N and sqrt N ≠ 0. (At the zero quaternion the two differ, 0 · ⊤ = 0 against 0 / 0 = ⊥:
  this is why N > 0 is assumed.) From there on both apply the same rotation polynomial and the same column scaling by
  exp a, exp b, exp d, so the scaled rotations RS agree entry by entry. Finally entry (i, j) of RS · RSᵀ is, on one
  side, the explicit three-term sum ((RS i0 · RS j0) + (RS i1 · RS j1)) + (RS i2 · RS j2) with the smaller row first,
  and on the other the sum over k of RS (i, k) · RS (j, k): the same three products in the same order, up to
  exchanging the two factors of each product when i > j. Only commutativity of the product on the extended reals is
  used; no distributive law is needed.
-/
import proofs.«158826_j11218454577222_2_alg».proof.Proof.Spec
import proofs.«158826_j11218454577222_2_alg».proof.Proof.RefSpec
import Idealize.ShloMosaic.PureOps.Ideal
import Idealize.ShloMosaic.PureOps.Ideal.Laws
import Mathlib.Data.EReal.Basic
import Mathlib.Analysis.SpecialFunctions.Pow.Real
import Mathlib.Algebra.BigOperators.Fin

namespace Cert.Algebra

open Idealize.ShloMosaic

/-- The squared norm of four real scalars, formed on the extended reals, is the cast of the real squared norm. -/
theorem normSq_coe (w x y z : ℝ) :
    (w : EReal) * (w : EReal) + (x : EReal) * (x : EReal) + (y : EReal) * (y : EReal) + (z : EReal) * (z : EReal)
      = ((w * w + x * x + y * y + z * z : ℝ) : EReal) := by
  simp only [EReal.coe_mul, EReal.coe_add]

/-- The reciprocal norm of a nonzero real quaternion is the cast of the real number (sqrt N)⁻¹: N is neither
    negative nor zero, so the reciprocal square root takes its ordinary real branch. -/
theorem invNorm_coe (w x y z : ℝ) (hpos : 0 < w * w + x * x + y * y + z * z) :
    Cert.Spec.invNorm (F := Ideal) (w : EReal) (x : EReal) (y : EReal) (z : EReal)
      = (((Real.sqrt (w * w + x * x + y * y + z * z))⁻¹ : ℝ) : EReal) := by
  unfold Cert.Spec.invNorm
  simp only [Ideal.mulf_def, Ideal.addf_def, Ideal.rsqrt_def]
  rw [normSq_coe, Ideal.rsqrt_coe, if_neg (not_lt.mpr hpos.le), if_neg hpos.ne']

/-- The norm of a nonzero real quaternion is the cast of the real number sqrt N. -/
theorem norm_coe (w x y z : ℝ) (hpos : 0 < w * w + x * x + y * y + z * z) :
    Ideal.sqrt ((w : EReal) * (w : EReal) + (x : EReal) * (x : EReal) + (y : EReal) * (y : EReal) + (z : EReal) * (z : EReal))
      = ((Real.sqrt (w * w + x * x + y * y + z * z) : ℝ) : EReal) := by
  rw [normSq_coe, Ideal.sqrt_coe, if_neg (not_lt.mpr hpos.le)]

/-- Dividing a real by sqrt N, N > 0, is multiplying it by (sqrt N)⁻¹: the divisor is a nonzero real. -/
theorem div_norm_coe (q N : ℝ) (hpos : 0 < N) :
    Ideal.div (q : EReal) ((Real.sqrt N : ℝ) : EReal) = (q : EReal) * (((Real.sqrt N)⁻¹ : ℝ) : EReal) := by
  rw [Ideal.div_coe (Real.sqrt_pos.mpr hpos).ne', one_div]

/-- The two scaled rotations agree entry by entry: both normalise the quaternion to the same four numbers
    q · (sqrt N)⁻¹, and then apply the same rotation polynomial and the same column scaling. -/
theorem rs_eq_rsR (w x y z a b d : ℝ) (hpos : 0 < w * w + x * x + y * y + z * z) (c : Fin 9) :
    Cert.Spec.rs (F := Ideal) (w : EReal) (x : EReal) (y : EReal) (z : EReal) (a : EReal) (b : EReal) (d : EReal) c
      = Cert.RefSpec.rsR (w : EReal) (x : EReal) (y : EReal) (z : EReal) (a : EReal) (b : EReal) (d : EReal) c := by
  unfold Cert.Spec.rs Cert.RefSpec.rsR
  simp only [invNorm_coe w x y z hpos, norm_coe w x y z hpos, div_norm_coe _ _ hpos, Ideal.mulf_def, Ideal.exp_def]
  fin_cases c <;> rfl

/-- The product of two rows does not depend on their order: each of the three products commutes. -/
theorem rowDot_comm (M : Fin 9 → EReal) (i j : Fin 3) :
    Cert.Spec.rowDot (F := Ideal) M i j = Cert.Spec.rowDot (F := Ideal) M j i := by
  unfold Cert.Spec.rowDot
  simp only [Ideal.mulf_def, Ideal.addf_def]
  exact congrArg₂ (· + ·) (congrArg₂ (· + ·) (mul_comm _ _) (mul_comm _ _)) (mul_comm _ _)

/-- The explicit three-term product of rows i and j is the sum over the column index, term for term. -/
theorem rowDot_eq_sum (M : Fin 9 → EReal) (i j : Fin 3) :
    Cert.Spec.rowDot (F := Ideal) M i j
      = ∑ k : Fin 3, M ⟨3 * i.val + k.val, by omega⟩ * M ⟨3 * j.val + k.val, by omega⟩ := by
  rw [Fin.sum_univ_three]
  rfl

/-- A row-major position 3 i + j of a 3 × 3 matrix is below 9. -/
theorem idx_lt (i j : Fin 3) : 3 * i.val + j.val < 9 := by omega

/-- For real inputs and a nonzero quaternion, the stored entry at c = 3 i + j of the first formula is entry (i, j)
    of the second. On and above the diagonal the two are the same three-term sum; below it the first formula holds
    the product of rows j and i, which is the product of rows i and j by commutativity. -/
theorem covK_eq_covR (w x y z a b d : ℝ) (hpos : 0 < w * w + x * x + y * y + z * z) (i j : Fin 3) (c : Fin 9) (hc : c.val = 3 * i.val + j.val) :
    Cert.Spec.covK (F := Ideal) (w : EReal) (x : EReal) (y : EReal) (z : EReal) (a : EReal) (b : EReal) (d : EReal) c
      = Cert.RefSpec.covR (w : EReal) (x : EReal) (y : EReal) (z : EReal) (a : EReal) (b : EReal) (d : EReal) i j := by
  have hM : Cert.Spec.rs (F := Ideal) (w : EReal) (x : EReal) (y : EReal) (z : EReal) (a : EReal) (b : EReal) (d : EReal)
      = Cert.RefSpec.rsR (w : EReal) (x : EReal) (y : EReal) (z : EReal) (a : EReal) (b : EReal) (d : EReal) :=
    funext (rs_eq_rsR w x y z a b d hpos)
  unfold Cert.RefSpec.covR
  rw [← rowDot_eq_sum, ← hM]
  obtain rfl : c = ⟨3 * i.val + j.val, idx_lt i j⟩ := Fin.ext hc
  fin_cases i <;> fin_cases j
  · rfl
  · rfl
  · rfl
  · refine Eq.trans ?_ (rowDot_comm _ 0 1); rfl
  · rfl
  · rfl
  · refine Eq.trans ?_ (rowDot_comm _ 0 2); rfl
  · refine Eq.trans ?_ (rowDot_comm _ 1 2); rfl
  · rfl

end Cert.Algebra
-- ==== Proof.Bridge.lean ====
/-
  The bridge: under the precondition, the reference's result array is the kernel's whole-array function of the same
  two argument arrays, at the extended reals.

  Entry (n, i, j) of the reference's result is entry (i, j) of RS · RSᵀ for row n's quaternion divided by its norm.
  Entry (n, i, j) of the kernel's whole-array function is the stored entry 3 i + j of the same product formed from the
  quaternion multiplied by the reciprocal square root of its squared norm. The precondition says that every word of
  the two arrays is a real number and that every quaternion has a positive squared norm; for real words and a nonzero
  quaternion the two per-gaussian formulas agree.
-/
import proofs.«158826_j11218454577222_2_alg».proof.Proof.RefValue
import proofs.«158826_j11218454577222_2_alg».proof.Proof.WholeArray
import proofs.«158826_j11218454577222_2_alg».proof.Proof.PreDecode
import proofs.«158826_j11218454577222_2_alg».proof.Proof.Algebra

noncomputable section

namespace Cert.Bridge

open Idealize.ShloMosaic Idealize.ShloMosaic.ValueIdx

/-- Under the precondition the reference's result is the kernel's whole-array function of the same two arrays.
    At entry (n, i, j) both sides are a per-gaussian formula of row n's seven words: the reference's is the quotient
    form, the kernel's the reciprocal-square-root form. The precondition makes the seven words real numbers and the
    quaternion's squared norm positive, which is what the law joining the two forms needs. -/
theorem ref_eq_kernel [Cert.Pre_finite_inputs.Facts]
    (x0 : FVec Ideal (⟨2, ![4000000, 4]⟩ : Shape) .f32) (x1 : FVec Ideal (⟨2, ![4000000, 3]⟩ : Shape) .f32)
    (hpre : Cert.Pre_finite_inputs.fn (F := Ideal) x0 x1 = fun _ => 1#1)
    (h0 : (⟨2, ![4000000, 4]⟩ : Shape).ShapeCasts ⟨2, ![31250, 512]⟩) (h1 : (⟨2, ![4000000, 3]⟩ : Shape).ShapeCasts ⟨2, ![31250, 384]⟩)
    (h2 : (⟨2, ![31250, 1152]⟩ : Shape).ShapeCasts ⟨2, ![4000000, 9]⟩) (h3 : (⟨2, ![4000000, 9]⟩ : Shape).ShapeCasts ⟨3, ![4000000, 3, 3]⟩) :
    Cert.ReferenceIdeal.Read.val_main_v100 (F := Ideal) x0 x1
      = shapeCast ⟨3, ![4000000, 3, 3]⟩ (shapeCast ⟨2, ![4000000, 9]⟩ (Cert.WholeArray.blockFn (shapeCast ⟨2, ![31250, 512]⟩ x0 h0) (shapeCast ⟨2, ![31250, 384]⟩ x1 h1)) h2) h3 := by
  funext idx
  obtain ⟨n, i, j, rfl⟩ : ∃ (n : Fin 4000000) (i j : Fin 3), idx = ix3 n i j := ⟨idx 0, idx 1, idx 2, eq_ix3 idx⟩
  rw [Cert.RefValue.result_apply, Cert.WholeArray.result_apply]
  obtain ⟨w, hw⟩ := Cert.PreDecode.rot_real x0 x1 hpre n 0
  obtain ⟨x, hx⟩ := Cert.PreDecode.rot_real x0 x1 hpre n 1
  obtain ⟨y, hy⟩ := Cert.PreDecode.rot_real x0 x1 hpre n 2
  obtain ⟨z, hz⟩ := Cert.PreDecode.rot_real x0 x1 hpre n 3
  obtain ⟨a, ha⟩ := Cert.PreDecode.scal_real x0 x1 hpre n 0
  obtain ⟨b, hb⟩ := Cert.PreDecode.scal_real x0 x1 hpre n 1
  obtain ⟨d, hd⟩ := Cert.PreDecode.scal_real x0 x1 hpre n 2
  have hp := Cert.PreDecode.norm_pos x0 x1 hpre n
  rw [hw, hx, hy, hz] at hp
  rw [hw, hx, hy, hz, ha, hb, hd]
  have hpos : 0 < w * w + x * x + y * y + z * z := by exact_mod_cast hp
  exact (Cert.Algebra.covK_eq_covR w x y z a b d hpos i j ⟨3 * i.val + j.val, by omega⟩ rfl).symm

end Cert.Bridge

end
-- ==== Proof.lean ====
/-
  Gaussian covariances from raw quaternions and log-scales: a Pallas kernel against its jnp reference.

  Each of the 4,000,000 rows is a quaternion (w, x, y, z) and three log-scales (a, b, d); its result is the 3 × 3 matrix
  RS · RSᵀ, where R is the rotation matrix of the NORMALISED quaternion and RS is R with column k scaled by the exponential
  of the k-th log-scale. The kernel normalises by multiplying with rsqrt (w² + x² + y² + z²) and forms the nine entries as
  explicit three-term sums (the symmetric ones once); the reference divides by sqrt (w² + x² + y² + z²) and contracts RS with
  itself over the column index. On the extended reals the two agree wherever the seven inputs are real numbers and the
  quaternion is not zero: there x · (√N)⁻¹ is x / √N, everything downstream is the same polynomial in real numbers, and
  a sum of three products is the same in either grouping and either order of the factors. At the zero quaternion they do
  NOT agree (0 · rsqrt 0 = 0 · ⊤ = 0 against 0 / 0, the reference's own undefined quotient), which is why the precondition
  asks, beside finiteness, that every row's sum of squares be positive.

  Layout. The kernel program reshapes the two arguments so that a row of the reshaped arrays holds 128 consecutive
  gaussians with their words interleaved, walks the 31250 reshaped rows in fifty blocks of 632 (the last block overhangs
  the arrays by 350 rows: its transfers move the 282 rows inside only), de-interleaves inside the body by a cast and a
  transpose, and interleaves the nine results back; two reshapes after the call give the [4000000, 3, 3] result. Reading
  all of that at an index: result (n, i, j) is the kernel's formula of gaussian n's seven words at entry 3 i + j.

  The modules: Spec / RefSpec (the two per-gaussian formulas), Algebra (they agree), PayDef / PayIdx (the body's stored
  block read at an index), Body / Rows (the frame run with the staging buffers named; a stored row depends on the same row
  of the loaded blocks), Final (the fifty written-back blocks make one whole-array function), Host (the reshapes around
  the call), WholeArray (that function through the reshapes, at an index), KernelRun (the kernel's run with its result
  named), RefValue (the reference's result read at an index), PreDecode (the precondition, pointwise), Bridge (the two
  results are one array), and the claims below.
-/
import proofs.«158826_j11218454577222_2_alg».proof.Defs
import proofs.«158826_j11218454577222_2_alg».proof.Proof.Gen.Kernel
import proofs.«158826_j11218454577222_2_alg».proof.Proof.Gen.Kernel.Skeleton
import proofs.«158826_j11218454577222_2_alg».proof.Proof.Gen.Kernel.Launch
import proofs.«158826_j11218454577222_2_alg».proof.Proof.Gen.Kernel.Points
import proofs.«158826_j11218454577222_2_alg».proof.Proof.Gen.Kernel.Frame
import proofs.«158826_j11218454577222_2_alg».proof.Proof.Gen.KernelIdeal
import proofs.«158826_j11218454577222_2_alg».proof.Proof.Gen.KernelIdeal.Skeleton
import proofs.«158826_j11218454577222_2_alg».proof.Proof.Gen.KernelIdeal.Launch
import proofs.«158826_j11218454577222_2_alg».proof.Proof.Gen.KernelIdeal.Points
import proofs.«158826_j11218454577222_2_alg».proof.Proof.Gen.KernelIdeal.Frame
import proofs.«158826_j11218454577222_2_alg».proof.Proof.Gen.ReferenceIdeal
import proofs.«158826_j11218454577222_2_alg».proof.Proof.Gen.ReferenceIdeal.Run
import proofs.«158826_j11218454577222_2_alg».proof.Proof.Gen.ReferenceIdeal.Read
import proofs.«158826_j11218454577222_2_alg».proof.Proof.Gen.Pre_finite_inputs
import proofs.«158826_j11218454577222_2_alg».proof.Proof.BodyB
import proofs.«158826_j11218454577222_2_alg».proof.Proof.RowsB
import proofs.«158826_j11218454577222_2_alg».proof.Proof.KernelRunI
import proofs.«158826_j11218454577222_2_alg».proof.Proof.Bridge
import Idealize.ShloMosaic.Adequacy
import Idealize.ShloMosaic.Init

noncomputable section

namespace Cert.Proof

open Idealize.ShloMosaic Idealize.SL.Sem

/-- The word-level program runs to the end, faults nowhere and leaves its arguments as they were. -/
theorem frame_kernel : Cert.frame_Kernel := fun m ρ _ => Cert.KB.frame m ρ Cert.KB.rowLocal

/-- So does the program read at the extended reals. -/
theorem frame_ideal : Cert.frame_KernelIdeal := fun m ρ _ => Cert.KI.frame m ρ Cert.KI.rowLocal

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the same result array: the kernel's is
    `resultFn` of the arguments, the reference's its composed operations of them, and under the precondition — every
    input word a real number, every quaternion of positive squared norm — the two are one function, gaussian by gaussian. -/
theorem algebraic : Cert.algebraic_KernelIdeal_ReferenceIdeal := by
  intro m ρ m' ρ' hpre hagree
  refine ⟨fun c => Cert.KI.resultFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KI.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2]
  exact Cert.Bridge.ref_eq_kernel _ _ (hpre c) _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
